-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S4096x4096 : Shape := ⟨2, ![4096, 4096]⟩
abbrev S32x4096x2 : Shape := ⟨3, ![32, 4096, 2]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S32x4096x2 : S_.BroadcastsInDim S32x4096x2 (![] : Fin 0 → Fin S32x4096x2.rank)
  reducesTo_S32x4096x2_S_d0_1_2 : S32x4096x2.ReducesTo [0, 1, 2] S_

variable [Facts]

def fn {F : FTy → Type} [FloatOps F] (main_arg0 : FVec F S4x2048x4096 .f32) (main_arg1 : IVec S4096x4096 32) (main_arg2 : FVec F S32x4096x2 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S32x4096x2 .f32 := Host.absf main_arg2
  let main_cst_0 : FVec F S_ .f32 := constant S_ .f32 0x7F800000#32
  let main_v5 : FVec F S32x4096x2 .f32 := broadcastInDim S32x4096x2 ![] bcast_S_S32x4096x2 main_cst_0
  let main_v6 : IVec S32x4096x2 1 := cmpf .olt main_v4 main_v5
  let main_c_1 : IVec S_ 1 := constantI S_ 1 1#1
  let main_v7 : IVec S_ 1 := (fun x v => Host.reduce IntOp.andi x v reducesTo_S32x4096x2_S_d0_1_2 h_S_) main_v6 main_c_1
  let main_v8 : IVec S_ 1 := andi main_v3 main_v7
  main_v8
-- ==== Kernel.lean ====
abbrev S4x2048x4096 : Shape := ⟨3, ![4, 2048, 4096]⟩
abbrev S4096x4096 : Shape := ⟨2, ![4096, 4096]⟩
abbrev S32x4096x2 : Shape := ⟨3, ![32, 4096, 2]⟩
abbrev S8192x4096 : Shape := ⟨2, ![8192, 4096]⟩
abbrev S32x4096x1 : Shape := ⟨3, ![32, 4096, 1]⟩
abbrev S32x4096 : Shape := ⟨2, ![32, 4096]⟩
abbrev S_ : Shape := ⟨0, ![]⟩
abbrev S4096x32 : Shape := ⟨2, ![4096, 32]⟩
abbrev S512x4096 : Shape := ⟨2, ![512, 4096]⟩
abbrev S512x32 : Shape := ⟨2, ![512, 32]⟩
abbrev S512x128 : Shape := ⟨2, ![512, 128]⟩
abbrev S512x1 : Shape := ⟨2, ![512, 1]⟩
abbrev S2048x1024 : Shape := ⟨2, ![2048, 1024]⟩
abbrev S1024x1024 : Shape := ⟨2, ![1024, 1024]⟩

abbrev nBuf : Space → Nat
  | .hbm => 18
  | .vmem => 14
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .i32⟩
  | .hbm, ⟨2, _⟩ => ⟨S32x4096x2, .f32⟩
  | .hbm, ⟨3, _⟩ => ⟨S8192x4096, .f32⟩
  | .hbm, ⟨4, _⟩ => ⟨S8192x4096, .bf16⟩
  | .hbm, ⟨5, _⟩ => ⟨S32x4096x1, .f32⟩
  | .hbm, ⟨6, _⟩ => ⟨S32x4096, .f32⟩
  | .hbm, ⟨7, _⟩ => ⟨S32x4096x1, .f32⟩
  | .hbm, ⟨8, _⟩ => ⟨S32x4096, .f32⟩
  | .hbm, ⟨9, _⟩ => ⟨S_, .f32⟩
  | .hbm, ⟨10, _⟩ => ⟨S32x4096, .f32⟩
  | .hbm, ⟨11, _⟩ => ⟨S32x4096, .f32⟩
  | .hbm, ⟨12, _⟩ => ⟨S32x4096, .f32⟩
  | .hbm, ⟨13, _⟩ => ⟨S4096x32, .f32⟩
  | .hbm, ⟨14, _⟩ => ⟨S4096x32, .f32⟩
  | .hbm, ⟨15, _⟩ => ⟨S4096x4096, .bf16⟩
  | .hbm, ⟨16, _⟩ => ⟨S8192x4096, .f32⟩
  | .hbm, ⟨17, _⟩ => ⟨S4x2048x4096, .f32⟩
  | .local _ .vmem, ⟨0, _⟩ => ⟨S512x4096, .i32⟩
  | .local _ .vmem, ⟨1, _⟩ => ⟨S512x4096, .i32⟩
  | .local _ .vmem, ⟨2, _⟩ => ⟨S512x32, .f32⟩
  | .local _ .vmem, ⟨3, _⟩ => ⟨S512x32, .f32⟩
  | .local _ .vmem, ⟨4, _⟩ => ⟨S512x32, .f32⟩
  | .local _ .vmem, ⟨5, _⟩ => ⟨S512x32, .f32⟩
  | .local _ .vmem, ⟨6, _⟩ => ⟨S512x4096, .bf16⟩
  | .local _ .vmem, ⟨7, _⟩ => ⟨S512x4096, .bf16⟩
  | .local _ .vmem, ⟨8, _⟩ => ⟨S2048x1024, .bf16⟩
  | .local _ .vmem, ⟨9, _⟩ => ⟨S2048x1024, .bf16⟩
  | .local _ .vmem, ⟨10, _⟩ => ⟨S1024x1024, .bf16⟩
  | .local _ .vmem, ⟨11, _⟩ => ⟨S1024x1024, .bf16⟩
  | .local _ .vmem, ⟨12, _⟩ => ⟨S2048x1024, .f32⟩
  | .local _ .vmem, ⟨13, _⟩ => ⟨S2048x1024, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨3, ![4, 4, 4], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S2048x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S1024x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S2048x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

class Facts₀ : Prop where
  shapeCasts_S4x2048x4096_S8192x4096 : S4x2048x4096.ShapeCasts S8192x4096
  bitsLt_bf16_f32 : FTy.bits .bf16 < FTy.bits .f32
  slices_S32x4096x2_S32x4096x1_0_0_0 : S32x4096x2.Slices ![0, 0, 0] S32x4096x1
  shapeCasts_S32x4096x1_S32x4096 : S32x4096x1.ShapeCasts S32x4096
  slices_S32x4096x2_S32x4096x1_0_0_1 : S32x4096x2.Slices ![0, 0, 1] S32x4096x1
  bcast_S_S32x4096 : S_.BroadcastsInDim S32x4096 (![] : Fin 0 → Fin S32x4096.rank)
  transposes_S32x4096_S4096x32_1_0 : S32x4096.Transposes [1, 0] S4096x32
  inb_S512x4096_S512x128_0_0 : ∀ a, (![0, 0] : Fin 2 → Nat) a + S512x128.size a ≤ S512x4096.size a
  h_S512x128 : 0 < S512x128.numel
  inb_S512x32_S512x1_0_0 : ∀ a, (![0, 0] : Fin 2 → Nat) a + S512x1.size a ≤ S512x32.size a
  h_S512x1 : 0 < S512x1.numel
  shapeCasts_S512x1_S512x1 : S512x1.ShapeCasts S512x1
  broadcasts_S512x1_S512x128 : S512x1.Broadcasts S512x128
  packedbf16_S512x4096_S512x128_0_0 : (Rect.unit (s := S512x4096) ![0, 0] S512x128.size inb_S512x4096_S512x128_0_0).PackedRows (EltTy.packing .bf16)
  inb_S512x4096_S512x128_0_128 : ∀ a, (![0, 128] : Fin 2 → Nat) a + S512x128.size a ≤ S512x4096.size a
  inb_S512x32_S512x1_0_1 : ∀ a, (![0, 1] : Fin 2 → Nat) a + S512x1.size a ≤ S512x32.size a
  packedbf16_S512x4096_S512x128_0_128 : (Rect.unit (s := S512x4096) ![0, 128] S512x128.size inb_S512x4096_S512x128_0_128).PackedRows (EltTy.packing .bf16)
  inb_S512x4096_S512x128_0_256 : ∀ a, (![0, 256] : Fin 2 → Nat) a + S512x128.size a ≤ S512x4096.size a
  inb_S512x32_S512x1_0_2 : ∀ a, (![0, 2] : Fin 2 → Nat) a + S512x1.size a ≤ S512x32.size a
  packedbf16_S512x4096_S512x128_0_256 : (Rect.unit (s := S512x4096) ![0, 256] S512x128.size inb_S512x4096_S512x128_0_256).PackedRows (EltTy.packing .bf16)
  inb_S512x4096_S512x128_0_384 : ∀ a, (![0, 384] : Fin 2 → Nat) a + S512x128.size a ≤ S512x4096.size a
  inb_S512x32_S512x1_0_3 : ∀ a, (![0, 3] : Fin 2 → Nat) a + S512x1.size a ≤ S512x32.size a
  packedbf16_S512x4096_S512x128_0_384 : (Rect.unit (s := S512x4096) ![0, 384] S512x128.size inb_S512x4096_S512x128_0_384).PackedRows (EltTy.packing .bf16)
  inb_S512x4096_S512x128_0_512 : ∀ a, (![0, 512] : Fin 2 → Nat) a + S512x128.size a ≤ S512x4096.size a
  inb_S512x32_S512x1_0_4 : ∀ a, (![0, 4] : Fin 2 → Nat) a + S512x1.size a ≤ S512x32.size a
  packedbf16_S512x4096_S512x128_0_512 : (Rect.unit (s := S512x4096) ![0, 512] S512x128.size inb_S512x4096_S512x128_0_512).PackedRows (EltTy.packing .bf16)
  inb_S512x4096_S512x128_0_640 : ∀ a, (![0, 640] : Fin 2 → Nat) a + S512x128.size a ≤ S512x4096.size a
  inb_S512x32_S512x1_0_5 : ∀ a, (![0, 5] : Fin 2 → Nat) a + S512x1.size a ≤ S512x32.size a
  packedbf16_S512x4096_S512x128_0_640 : (Rect.unit (s := S512x4096) ![0, 640] S512x128.size inb_S512x4096_S512x128_0_640).PackedRows (EltTy.packing .bf16)
  inb_S512x4096_S512x128_0_768 : ∀ a, (![0, 768] : Fin 2 → Nat) a + S512x128.size a ≤ S512x4096.size a
  inb_S512x32_S512x1_0_6 : ∀ a, (![0, 6] : Fin 2 → Nat) a + S512x1.size a ≤ S512x32.size a
  packedbf16_S512x4096_S512x128_0_768 : (Rect.unit (s := S512x4096) ![0, 768] S512x128.size inb_S512x4096_S512x128_0_768).PackedRows (EltTy.packing .bf16)
  inb_S512x4096_S512x128_0_896 : ∀ a, (![0, 896] : Fin 2 → Nat) a + S512x128.size a ≤ S512x4096.size a
  inb_S512x32_S512x1_0_7 : ∀ a, (![0, 7] : Fin 2 → Nat) a + S512x1.size a ≤ S512x32.size a
  packedbf16_S512x4096_S512x128_0_896 : (Rect.unit (s := S512x4096) ![0, 896] S512x128.size inb_S512x4096_S512x128_0_896).PackedRows (EltTy.packing .bf16)
  inb_S512x4096_S512x128_0_1024 : ∀ a, (![0, 1024] : Fin 2 → Nat) a + S512x128.size a ≤ S512x4096.size a
  inb_S512x32_S512x1_0_8 : ∀ a, (![0, 8] : Fin 2 → Nat) a + S512x1.size a ≤ S512x32.size a
  packedbf16_S512x4096_S512x128_0_1024 : (Rect.unit (s := S512x4096) ![0, 1024] S512x128.size inb_S512x4096_S512x128_0_1024).PackedRows (EltTy.packing .bf16)
  inb_S512x4096_S512x128_0_1152 : ∀ a, (![0, 1152] : Fin 2 → Nat) a + S512x128.size a ≤ S512x4096.size a
  inb_S512x32_S512x1_0_9 : ∀ a, (![0, 9] : Fin 2 → Nat) a + S512x1.size a ≤ S512x32.size a
  packedbf16_S512x4096_S512x128_0_1152 : (Rect.unit (s := S512x4096) ![0, 1152] S512x128.size inb_S512x4096_S512x128_0_1152).PackedRows (EltTy.packing .bf16)
  inb_S512x4096_S512x128_0_1280 : ∀ a, (![0, 1280] : Fin 2 → Nat) a + S512x128.size a ≤ S512x4096.size a
  inb_S512x32_S512x1_0_10 : ∀ a, (![0, 10] : Fin 2 → Nat) a + S512x1.size a ≤ S512x32.size a
  packedbf16_S512x4096_S512x128_0_1280 : (Rect.unit (s := S512x4096) ![0, 1280] S512x128.size inb_S512x4096_S512x128_0_1280).PackedRows (EltTy.packing .bf16)
  inb_S512x4096_S512x128_0_1408 : ∀ a, (![0, 1408] : Fin 2 → Nat) a + S512x128.size a ≤ S512x4096.size a
  inb_S512x32_S512x1_0_11 : ∀ a, (![0, 11] : Fin 2 → Nat) a + S512x1.size a ≤ S512x32.size a
  packedbf16_S512x4096_S512x128_0_1408 : (Rect.unit (s := S512x4096) ![0, 1408] S512x128.size inb_S512x4096_S512x128_0_1408).PackedRows (EltTy.packing .bf16)
  inb_S512x4096_S512x128_0_1536 : ∀ a, (![0, 1536] : Fin 2 → Nat) a + S512x128.size a ≤ S512x4096.size a
  inb_S512x32_S512x1_0_12 : ∀ a, (![0, 12] : Fin 2 → Nat) a + S512x1.size a ≤ S512x32.size a
  packedbf16_S512x4096_S512x128_0_1536 : (Rect.unit (s := S512x4096) ![0, 1536] S512x128.size inb_S512x4096_S512x128_0_1536).PackedRows (EltTy.packing .bf16)
  inb_S512x4096_S512x128_0_1664 : ∀ a, (![0, 1664] : Fin 2 → Nat) a + S512x128.size a ≤ S512x4096.size a
  inb_S512x32_S512x1_0_13 : ∀ a, (![0, 13] : Fin 2 → Nat) a + S512x1.size a ≤ S512x32.size a
  packedbf16_S512x4096_S512x128_0_1664 : (Rect.unit (s := S512x4096) ![0, 1664] S512x128.size inb_S512x4096_S512x128_0_1664).PackedRows (EltTy.packing .bf16)
  inb_S512x4096_S512x128_0_1792 : ∀ a, (![0, 1792] : Fin 2 → Nat) a + S512x128.size a ≤ S512x4096.size a
  inb_S512x32_S512x1_0_14 : ∀ a, (![0, 14] : Fin 2 → Nat) a + S512x1.size a ≤ S512x32.size a
  packedbf16_S512x4096_S512x128_0_1792 : (Rect.unit (s := S512x4096) ![0, 1792] S512x128.size inb_S512x4096_S512x128_0_1792).PackedRows (EltTy.packing .bf16)
  inb_S512x4096_S512x128_0_1920 : ∀ a, (![0, 1920] : Fin 2 → Nat) a + S512x128.size a ≤ S512x4096.size a
  inb_S512x32_S512x1_0_15 : ∀ a, (![0, 15] : Fin 2 → Nat) a + S512x1.size a ≤ S512x32.size a
  packedbf16_S512x4096_S512x128_0_1920 : (Rect.unit (s := S512x4096) ![0, 1920] S512x128.size inb_S512x4096_S512x128_0_1920).PackedRows (EltTy.packing .bf16)
  inb_S512x4096_S512x128_0_2048 : ∀ a, (![0, 2048] : Fin 2 → Nat) a + S512x128.size a ≤ S512x4096.size a
  inb_S512x32_S512x1_0_16 : ∀ a, (![0, 16] : Fin 2 → Nat) a + S512x1.size a ≤ S512x32.size a
  packedbf16_S512x4096_S512x128_0_2048 : (Rect.unit (s := S512x4096) ![0, 2048] S512x128.size inb_S512x4096_S512x128_0_2048).PackedRows (EltTy.packing .bf16)
  inb_S512x4096_S512x128_0_2176 : ∀ a, (![0, 2176] : Fin 2 → Nat) a + S512x128.size a ≤ S512x4096.size a
  inb_S512x32_S512x1_0_17 : ∀ a, (![0, 17] : Fin 2 → Nat) a + S512x1.size a ≤ S512x32.size a
  packedbf16_S512x4096_S512x128_0_2176 : (Rect.unit (s := S512x4096) ![0, 2176] S512x128.size inb_S512x4096_S512x128_0_2176).PackedRows (EltTy.packing .bf16)
  inb_S512x4096_S512x128_0_2304 : ∀ a, (![0, 2304] : Fin 2 → Nat) a + S512x128.size a ≤ S512x4096.size a
  inb_S512x32_S512x1_0_18 : ∀ a, (![0, 18] : Fin 2 → Nat) a + S512x1.size a ≤ S512x32.size a
  packedbf16_S512x4096_S512x128_0_2304 : (Rect.unit (s := S512x4096) ![0, 2304] S512x128.size inb_S512x4096_S512x128_0_2304).PackedRows (EltTy.packing .bf16)
  inb_S512x4096_S512x128_0_2432 : ∀ a, (![0, 2432] : Fin 2 → Nat) a + S512x128.size a ≤ S512x4096.size a
  inb_S512x32_S512x1_0_19 : ∀ a, (![0, 19] : Fin 2 → Nat) a + S512x1.size a ≤ S512x32.size a
  packedbf16_S512x4096_S512x128_0_2432 : (Rect.unit (s := S512x4096) ![0, 2432] S512x128.size inb_S512x4096_S512x128_0_2432).PackedRows (EltTy.packing .bf16)
  inb_S512x4096_S512x128_0_2560 : ∀ a, (![0, 2560] : Fin 2 → Nat) a + S512x128.size a ≤ S512x4096.size a
  inb_S512x32_S512x1_0_20 : ∀ a, (![0, 20] : Fin 2 → Nat) a + S512x1.size a ≤ S512x32.size a
  packedbf16_S512x4096_S512x128_0_2560 : (Rect.unit (s := S512x4096) ![0, 2560] S512x128.size inb_S512x4096_S512x128_0_2560).PackedRows (EltTy.packing .bf16)
  inb_S512x4096_S512x128_0_2688 : ∀ a, (![0, 2688] : Fin 2 → Nat) a + S512x128.size a ≤ S512x4096.size a
  inb_S512x32_S512x1_0_21 : ∀ a, (![0, 21] : Fin 2 → Nat) a + S512x1.size a ≤ S512x32.size a
  packedbf16_S512x4096_S512x128_0_2688 : (Rect.unit (s := S512x4096) ![0, 2688] S512x128.size inb_S512x4096_S512x128_0_2688).PackedRows (EltTy.packing .bf16)
  inb_S512x4096_S512x128_0_2816 : ∀ a, (![0, 2816] : Fin 2 → Nat) a + S512x128.size a ≤ S512x4096.size a
  inb_S512x32_S512x1_0_22 : ∀ a, (![0, 22] : Fin 2 → Nat) a + S512x1.size a ≤ S512x32.size a
  packedbf16_S512x4096_S512x128_0_2816 : (Rect.unit (s := S512x4096) ![0, 2816] S512x128.size inb_S512x4096_S512x128_0_2816).PackedRows (EltTy.packing .bf16)
  inb_S512x4096_S512x128_0_2944 : ∀ a, (![0, 2944] : Fin 2 → Nat) a + S512x128.size a ≤ S512x4096.size a
  inb_S512x32_S512x1_0_23 : ∀ a, (![0, 23] : Fin 2 → Nat) a + S512x1.size a ≤ S512x32.size a
  packedbf16_S512x4096_S512x128_0_2944 : (Rect.unit (s := S512x4096) ![0, 2944] S512x128.size inb_S512x4096_S512x128_0_2944).PackedRows (EltTy.packing .bf16)
  inb_S512x4096_S512x128_0_3072 : ∀ a, (![0, 3072] : Fin 2 → Nat) a + S512x128.size a ≤ S512x4096.size a
  inb_S512x32_S512x1_0_24 : ∀ a, (![0, 24] : Fin 2 → Nat) a + S512x1.size a ≤ S512x32.size a
  packedbf16_S512x4096_S512x128_0_3072 : (Rect.unit (s := S512x4096) ![0, 3072] S512x128.size inb_S512x4096_S512x128_0_3072).PackedRows (EltTy.packing .bf16)
  inb_S512x4096_S512x128_0_3200 : ∀ a, (![0, 3200] : Fin 2 → Nat) a + S512x128.size a ≤ S512x4096.size a
  inb_S512x32_S512x1_0_25 : ∀ a, (![0, 25] : Fin 2 → Nat) a + S512x1.size a ≤ S512x32.size a
  packedbf16_S512x4096_S512x128_0_3200 : (Rect.unit (s := S512x4096) ![0, 3200] S512x128.size inb_S512x4096_S512x128_0_3200).PackedRows (EltTy.packing .bf16)
  inb_S512x4096_S512x128_0_3328 : ∀ a, (![0, 3328] : Fin 2 → Nat) a + S512x128.size a ≤ S512x4096.size a
  inb_S512x32_S512x1_0_26 : ∀ a, (![0, 26] : Fin 2 → Nat) a + S512x1.size a ≤ S512x32.size a
  packedbf16_S512x4096_S512x128_0_3328 : (Rect.unit (s := S512x4096) ![0, 3328] S512x128.size inb_S512x4096_S512x128_0_3328).PackedRows (EltTy.packing .bf16)
  inb_S512x4096_S512x128_0_3456 : ∀ a, (![0, 3456] : Fin 2 → Nat) a + S512x128.size a ≤ S512x4096.size a
  inb_S512x32_S512x1_0_27 : ∀ a, (![0, 27] : Fin 2 → Nat) a + S512x1.size a ≤ S512x32.size a
  packedbf16_S512x4096_S512x128_0_3456 : (Rect.unit (s := S512x4096) ![0, 3456] S512x128.size inb_S512x4096_S512x128_0_3456).PackedRows (EltTy.packing .bf16)
  inb_S512x4096_S512x128_0_3584 : ∀ a, (![0, 3584] : Fin 2 → Nat) a + S512x128.size a ≤ S512x4096.size a
  inb_S512x32_S512x1_0_28 : ∀ a, (![0, 28] : Fin 2 → Nat) a + S512x1.size a ≤ S512x32.size a
  packedbf16_S512x4096_S512x128_0_3584 : (Rect.unit (s := S512x4096) ![0, 3584] S512x128.size inb_S512x4096_S512x128_0_3584).PackedRows (EltTy.packing .bf16)
  inb_S512x4096_S512x128_0_3712 : ∀ a, (![0, 3712] : Fin 2 → Nat) a + S512x128.size a ≤ S512x4096.size a
  inb_S512x32_S512x1_0_29 : ∀ a, (![0, 29] : Fin 2 → Nat) a + S512x1.size a ≤ S512x32.size a
  packedbf16_S512x4096_S512x128_0_3712 : (Rect.unit (s := S512x4096) ![0, 3712] S512x128.size inb_S512x4096_S512x128_0_3712).PackedRows (EltTy.packing .bf16)
  inb_S512x4096_S512x128_0_3840 : ∀ a, (![0, 3840] : Fin 2 → Nat) a + S512x128.size a ≤ S512x4096.size a
  inb_S512x32_S512x1_0_30 : ∀ a, (![0, 30] : Fin 2 → Nat) a + S512x1.size a ≤ S512x32.size a
  packedbf16_S512x4096_S512x128_0_3840 : (Rect.unit (s := S512x4096) ![0, 3840] S512x128.size inb_S512x4096_S512x128_0_3840).PackedRows (EltTy.packing .bf16)
  inb_S512x4096_S512x128_0_3968 : ∀ a, (![0, 3968] : Fin 2 → Nat) a + S512x128.size a ≤ S512x4096.size a
  inb_S512x32_S512x1_0_31 : ∀ a, (![0, 31] : Fin 2 → Nat) a + S512x1.size a ≤ S512x32.size a
  packedbf16_S512x4096_S512x128_0_3968 : (Rect.unit (s := S512x4096) ![0, 3968] S512x128.size inb_S512x4096_S512x128_0_3968).PackedRows (EltTy.packing .bf16)
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  shapeCasts_S8192x4096_S4x2048x4096 : S8192x4096.ShapeCasts S4x2048x4096
  dot_S2048x1024_S1024x1024_S2048x1024_1_1_0_0_n_n_wf : DotDims.WF S2048x1024 S1024x1024 S2048x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S4096x4096.size a
  hwx0_0 : ∀ i : grid0.Coords, EltTy.bits .i32 = 32 ∨ (Rect.block (s := S4096x4096) S512x4096.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x32.size a ≤ S4096x32.size a
  hwx0_1 : ∀ i : grid0.Coords, EltTy.bits .f32 = 32 ∨ (Rect.block (s := S4096x32) S512x32.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x32.size a ≤ S4096x32.size a
  hwx0_2 : ∀ i : grid0.Coords, EltTy.bits .f32 = 32 ∨ (Rect.block (s := S4096x32) S512x32.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x4096.size a ≤ S4096x4096.size a
  hwx0_3 : ∀ i : grid0.Coords, EltTy.bits .bf16 = 32 ∨ (Rect.block (s := S4096x4096) S512x4096.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x1024.size a ≤ S8192x4096.size a
  hwx1_0 : ∀ i : grid1.Coords, EltTy.bits .bf16 = 32 ∨ (Rect.block (s := S8192x4096) S2048x1024.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x1024.size a ≤ S4096x4096.size a
  hwx1_1 : ∀ i : grid1.Coords, EltTy.bits .bf16 = 32 ∨ (Rect.block (s := S4096x4096) S1024x1024.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2048x1024.size a ≤ S8192x4096.size a
  hwx1_2 : ∀ i : grid1.Coords, EltTy.bits .f32 = 32 ∨ (Rect.block (s := S8192x4096) S2048x1024.size (cc1_transform_2 i) (hinb1_2 i)).WholeWords (EltTy.packing .f32)

variable [Facts₀]

def dot_S2048x1024_S1024x1024_S2048x1024_1_1_0_0_n_n : DotDims S2048x1024 S1024x1024 S2048x1024 where
  lhsContracting := [1]
  rhsContracting := [1]
  lhsNonContracting := [0]
  rhsNonContracting := [0]
  lhsBatch := []
  rhsBatch := []
  wf := dot_S2048x1024_S1024x1024_S2048x1024_1_1_0_0_n_n_wf

abbrev win0_0 : Pipeline.Window sig grid0 :=
  Pipeline.Window.ofSpec (Memref.whole main_arg1) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v9) S512x32.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v10) S512x32.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v11) S512x4096.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v1) S2048x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v11) S1024x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v12) S2048x1024.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S4x2048x4096 : Shape := ⟨3, ![4, 2048, 4096]⟩
abbrev S4096x4096 : Shape := ⟨2, ![4096, 4096]⟩
abbrev S32x4096x2 : Shape := ⟨3, ![32, 4096, 2]⟩
abbrev S8192x4096 : Shape := ⟨2, ![8192, 4096]⟩
abbrev S32x4096x1 : Shape := ⟨3, ![32, 4096, 1]⟩
abbrev S32x4096 : Shape := ⟨2, ![32, 4096]⟩
abbrev S4096x32x128 : Shape := ⟨3, ![4096, 32, 128]⟩
abbrev S_ : Shape := ⟨0, ![]⟩
abbrev S4096x32 : Shape := ⟨2, ![4096, 32]⟩
abbrev S4096x32x1 : Shape := ⟨3, ![4096, 32, 1]⟩

abbrev nBuf : Space → Nat
  | .hbm => 25
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .i32⟩
  | .hbm, ⟨2, _⟩ => ⟨S32x4096x2, .f32⟩
  | .hbm, ⟨3, _⟩ => ⟨S8192x4096, .f32⟩
  | .hbm, ⟨4, _⟩ => ⟨S32x4096x1, .f32⟩
  | .hbm, ⟨5, _⟩ => ⟨S32x4096, .f32⟩
  | .hbm, ⟨6, _⟩ => ⟨S32x4096x1, .f32⟩
  | .hbm, ⟨7, _⟩ => ⟨S32x4096, .f32⟩
  | .hbm, ⟨8, _⟩ => ⟨S4096x32x128, .i32⟩
  | .hbm, ⟨9, _⟩ => ⟨S4096x32x128, .f32⟩
  | .hbm, ⟨10, _⟩ => ⟨S_, .f32⟩
  | .hbm, ⟨11, _⟩ => ⟨S4096x32x128, .f32⟩
  | .hbm, ⟨12, _⟩ => ⟨S4096x32x128, .f32⟩
  | .hbm, ⟨13, _⟩ => ⟨S4096x32, .f32⟩
  | .hbm, ⟨14, _⟩ => ⟨S4096x32x1, .f32⟩
  | .hbm, ⟨15, _⟩ => ⟨S4096x32x128, .f32⟩
  | .hbm, ⟨16, _⟩ => ⟨S4096x32x128, .f32⟩
  | .hbm, ⟨17, _⟩ => ⟨S4096x32, .f32⟩
  | .hbm, ⟨18, _⟩ => ⟨S4096x32x1, .f32⟩
  | .hbm, ⟨19, _⟩ => ⟨S4096x32x128, .f32⟩
  | .hbm, ⟨20, _⟩ => ⟨S4096x32x128, .f32⟩
  | .hbm, ⟨21, _⟩ => ⟨S4096x4096, .f32⟩
  | .hbm, ⟨22, _⟩ => ⟨S4096x4096, .f32⟩
  | .hbm, ⟨23, _⟩ => ⟨S8192x4096, .f32⟩
  | .hbm, ⟨24, _⟩ => ⟨S4x2048x4096, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩

abbrev nD : Nat := 1
abbrev τ : Topo := Topo.v7x

variable {F : FTy → Type} [FloatOps F]

class Facts₀ : Prop where
  shapeCasts_S4x2048x4096_S8192x4096 : S4x2048x4096.ShapeCasts S8192x4096
  slices_S32x4096x2_S32x4096x1_0_0_0 : S32x4096x2.Slices ![0, 0, 0] S32x4096x1
  shapeCasts_S32x4096x1_S32x4096 : S32x4096x1.ShapeCasts S32x4096
  slices_S32x4096x2_S32x4096x1_0_0_1 : S32x4096x2.Slices ![0, 0, 1] S32x4096x1
  shapeCasts_S4096x4096_S4096x32x128 : S4096x4096.ShapeCasts S4096x32x128
  bcast_S_S4096x32x128 : S_.BroadcastsInDim S4096x32x128 (![] : Fin 0 → Fin S4096x32x128.rank)
  transposes_S32x4096_S4096x32_1_0 : S32x4096.Transposes [1, 0] S4096x32
  bcast_S4096x32_S4096x32x1_0_1 : S4096x32.BroadcastsInDim S4096x32x1 (![0, 1] : Fin 2 → Fin S4096x32x1.rank)
  bcast_S4096x32x1_S4096x32x128_0_1_2 : S4096x32x1.BroadcastsInDim S4096x32x128 (![0, 1, 2] : Fin 3 → Fin S4096x32x128.rank)
  shapeCasts_S4096x32x128_S4096x4096 : S4096x32x128.ShapeCasts S4096x4096
  transposes_S4096x4096_S4096x4096_1_0 : S4096x4096.Transposes [1, 0] S4096x4096
  shapeCasts_S8192x4096_S4x2048x4096 : S8192x4096.ShapeCasts S4x2048x4096
  dot_S8192x4096_S4096x4096_S8192x4096_1_0_0_1_n_n_wf : DotDims.WF S8192x4096 S4096x4096 S8192x4096 [1] [0] [0] [1] [] []

variable [Facts₀]

def dot_S8192x4096_S4096x4096_S8192x4096_1_0_0_1_n_n : DotDims S8192x4096 S4096x4096 S8192x4096 where
  lhsContracting := [1]
  rhsContracting := [0]
  lhsNonContracting := [0]
  rhsNonContracting := [1]
  lhsBatch := []
  rhsBatch := []
  wf := dot_S8192x4096_S4096x4096_S8192x4096_1_0_0_1_n_n_wf

class Facts : Prop extends Facts₀ where

variable [Facts]
-- ==== Proof.Spec.lean ====
/-
  The value both programs compute, stated once over the three argument arrays.

  The weight is quantized: `q[o,k]` is an integer, and the 128 consecutive columns `k` of one group `g = k / 128`
  share a scale `s[g,o]` and a zero point `z[g,o]` (the argument array `sz[g,o,0]`, `sz[g,o,1]`). The dequantized weight
  is `(q - 8)·s + z`, and the result is `x · wᵀ`: entry `(b, r, o)` is the sum over all 4096 columns `k` of
  `x[b,r,k] · w[o,k]`.

  One side shifts the integer before scaling, `(q - 8)·s + z`; the other folds the shift into the zero point,
  `q·s + (z - 8·s)`. Over the extended reals these agree when `s` and `z` are real numbers (distributivity fails at
  the infinities), which is what the precondition gives. Nothing is asked of `x`.
-/
import Idealize.ShloMosaic.PureOps.Ideal
import Idealize.ShloMosaic.Lib.ValueIdx

noncomputable section

namespace Cert.Spec

open Idealize.ShloMosaic Idealize.ShloMosaic.ValueIdx

/-- The group of column `k`: 128 consecutive columns share a scale and a zero point. -/
def grp (k : Fin 4096) : Fin 32 := ⟨k.val / 128, by have := k.isLt; omega⟩

theorem grp_val (k : Fin 4096) : (grp k).val = k.val / 128 := rfl

/-- The shift of the quantized integer, the same binary word in both programs (never evaluated). -/
abbrev c8 : EReal := Ideal.ofBits .f32 0x41000000#32

/-- The weight with the shift folded into the zero point, from the integer, the scale and the folded zero point of
    the entry's row and group: `q·s + z'`. -/
def wFolded (q : BitVec 32) (s z' : EReal) : EReal := ((q.toInt : ℝ) : EReal) * s + z'

/-- The folded zero point `z - 8·s`. -/
def zFolded (s z : EReal) : EReal := z - c8 * s

/-- The weight with the integer shifted first: `(q - 8)·s + z`. -/
def wShifted (q : BitVec 32) (s z : EReal) : EReal := (((q.toInt : ℝ) : EReal) - c8) * s + z

/-- Row `o`, column `k` of the dequantized weight in the folded form, from the argument arrays. -/
def wK (a1 : (⟨2, ![4096, 4096]⟩ : Shape).Idx → BitVec 32) (a2 : (⟨3, ![32, 4096, 2]⟩ : Shape).Idx → EReal)
    (o k : Fin 4096) : EReal :=
  wFolded (a1 (ix2 o k)) (a2 (ix3 (grp k) o (0 : Fin 2))) (zFolded (a2 (ix3 (grp k) o (0 : Fin 2))) (a2 (ix3 (grp k) o (1 : Fin 2))))

/-- The same entry in the shifted form. -/
def wR (a1 : (⟨2, ![4096, 4096]⟩ : Shape).Idx → BitVec 32) (a2 : (⟨3, ![32, 4096, 2]⟩ : Shape).Idx → EReal)
    (o k : Fin 4096) : EReal :=
  wShifted (a1 (ix2 o k)) (a2 (ix3 (grp k) o (0 : Fin 2))) (a2 (ix3 (grp k) o (1 : Fin 2)))

/-- The result array from a weight `w`: entry `(b, r, o)` is the sum over the 4096 columns of `x[b,r,k] · w o k`. -/
def out (a0 : (⟨3, ![4, 2048, 4096]⟩ : Shape).Idx → EReal) (w : Fin 4096 → Fin 4096 → EReal) :
    (⟨3, ![4, 2048, 4096]⟩ : Shape).Idx → EReal :=
  fun i => ∑ k : Fin 4096, a0 (ix3 (i 0) (i 1) k) * w (i 2) k

/-- The kernel's result: the folded weight. -/
def GK (a0 : (⟨3, ![4, 2048, 4096]⟩ : Shape).Idx → EReal) (a1 : (⟨2, ![4096, 4096]⟩ : Shape).Idx → BitVec 32)
    (a2 : (⟨3, ![32, 4096, 2]⟩ : Shape).Idx → EReal) : (⟨3, ![4, 2048, 4096]⟩ : Shape).Idx → EReal :=
  out a0 (wK a1 a2)

/-- The reference's result: the shifted weight. -/
def GR (a0 : (⟨3, ![4, 2048, 4096]⟩ : Shape).Idx → EReal) (a1 : (⟨2, ![4096, 4096]⟩ : Shape).Idx → BitVec 32)
    (a2 : (⟨3, ![32, 4096, 2]⟩ : Shape).Idx → EReal) : (⟨3, ![4, 2048, 4096]⟩ : Shape).Idx → EReal :=
  out a0 (wR a1 a2)

end Cert.Spec

end
-- ==== Proof.KRun.lean ====
/-
  The kernel's run with its result named.

  The program is four stretches: host operations, the dequantization region, the matmul region, one host reshape. The
  contents of every buffer at each boundary are a fold from the launch memory: after the first host stretch, after
  each region (its arrays at what the write-backs leave, every other buffer as it was), after the last reshape. The run
  below states that every weakly fair execution terminates, nothing faulting, with the result array at that fold's
  last stage and the three argument arrays as launched. What the fold's last stage IS, as a function of the
  arguments, is the business of the modules that read each stretch.
-/
import proofs.«101009_j1726576857544_2_alg».proof.Proof.Gen.KernelIdeal.Frame

set_option maxRecDepth 16384

noncomputable section

namespace Cert.KernelIdeal.KRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program from any memory with zero counters terminates, nothing faulting; the
    result array ends at the last stage of the fold of the four stretches over the launch memory, and the argument
    arrays end as launched. The four stretches are run as segments over the thread state "every unscoped buffer at
    the boundary's contents"; the last thread state is read against the final memory, buffer by buffer. -/
theorem run : θ_run defs (onTc (τ := τ) (main (F := F))) ⟨m, fun _ => 0, ρ⟩ (fun r => ∀ c : Dev nD,
      r.2.mem ((c.tc : Thread nD τ).loc main_v13) = W4 m ρ c (Proc.devRef .tc main_v13)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v13 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c)⟩)

end Cert.KernelIdeal.KRun

end
-- ==== Proof.RefSide.lean ====
/-
  The reference program's result, read at one entry, is the shifted-weight product of the specification.

  The reference reshapes the activations `x[4,2048,4096]` to `[8192,4096]` (row `2048·b + r`), builds the
  dequantized weight as a `[4096,32,128]` array (row `o`, group `g`, lane `l`, standing for column `128·g + l`),
  reshapes it to `[4096,4096]`, transposes it, contracts the activations' column axis with the transposed weight's
  row axis, and reshapes the product back to `[4,2048,4096]`. All of these are re-indexings, so entry `(b, r, o)`
  of the result is the sum over the 4096 columns `k` of `x[b,r,k]` times the weight's entry `(o, k)`; and that entry
  is `(q[o,k] - 8)·s + z` with the scale `s = sz[k/128, o, 0]` and the zero point `z = sz[k/128, o, 1]` of the
  column's group. The lemmas below compute each composed index map on explicit coordinates by row-major arithmetic.
-/
import proofs.«101009_j1726576857544_2_alg».proof.Proof.Gen.ReferenceIdeal.Read
import proofs.«101009_j1726576857544_2_alg».proof.Proof.Spec

noncomputable section

namespace Cert.ReferenceIdeal.RefValue

open Cert.ReferenceIdeal Cert.ReferenceIdeal.Gen Cert.ReferenceIdeal.Read Idealize.ShloMosaic Idealize.ShloMosaic.ValueIdx

/-- The lane of column `k` inside its group of 128. -/
def lane (k : Fin 4096) : Fin 128 := ⟨k.val % 128, Nat.mod_lt _ (by decide)⟩

/-- The activations' entry the product reads for result entry `(b, r, o)` and column `k`: the result index is
    flattened to row `2048·b + r` of the `[8192,4096]` product, the contraction puts `k` on the column axis, and
    un-flattening row `2048·b + r`, column `k` gives back `(b, r, k)`, because `r < 2048` and `k < 4096`. -/
theorem lhs_index (b : Fin 4) (r : Fin 2048) (o k : Fin 4096) :
    idx_main_v0 (lidx_main_v19 (idx_main_v20 (ix3 b r o)) k) = ix3 b r k := by
  have hb := b.isLt; have hr := r.isLt; have ho := o.isLt; have hk := k.isLt
  funext a; refine Fin.ext ?_
  match a with
  | ⟨0, _⟩ =>
    show (((b.val * 2048 + r.val) * 4096 + o.val) / 4096 * 4096 + k.val) / 8388608 = b.val
    omega
  | ⟨1, _⟩ =>
    show (((b.val * 2048 + r.val) * 4096 + o.val) / 4096 * 4096 + k.val) / 4096 % 2048 = r.val
    omega
  | ⟨2, _⟩ =>
    show (((b.val * 2048 + r.val) * 4096 + o.val) / 4096 * 4096 + k.val) % 4096 = k.val
    omega

/-- The weight's entry the product reads for result entry `(b, r, o)` and column `k`: the contraction reads the
    transposed weight at `(k, o)`, the transpose the flat weight at `(o, k)`, and un-flattening column `k` into
    group and lane gives `(o, k / 128, k % 128)` of the `[4096,32,128]` array. -/
theorem rhs_index (b : Fin 4) (r : Fin 2048) (o k : Fin 4096) :
    idx_main_v17 (idx_main_v18 (ridx_main_v19 (idx_main_v20 (ix3 b r o)) k)) = ix3 o (Cert.Spec.grp k) (lane k) := by
  have hb := b.isLt; have hr := r.isLt; have ho := o.isLt; have hk := k.isLt
  funext a; refine Fin.ext ?_
  match a with
  | ⟨0, _⟩ =>
    show ((((b.val * 2048 + r.val) * 4096 + o.val) % 4096) * 4096 + k.val) / 4096 = o.val
    omega
  | ⟨1, _⟩ =>
    show ((((b.val * 2048 + r.val) * 4096 + o.val) % 4096) * 4096 + k.val) / 128 % 32 = k.val / 128
    omega
  | ⟨2, _⟩ =>
    show ((((b.val * 2048 + r.val) * 4096 + o.val) % 4096) * 4096 + k.val) % 128 = k.val % 128
    omega

/-- The quantized integer under entry `(o, g, l)` of the `[4096,32,128]` array is `q[o, 128·g + l]`; at the group
    and lane of a column `k` that is `q[o, k]`. -/
theorem q_index (o k : Fin 4096) :
    idx_main_v5 (ix3 o (Cert.Spec.grp k) (lane k)) = ix2 o k := by
  have ho := o.isLt; have hk := k.isLt
  funext a; refine Fin.ext ?_
  match a with
  | ⟨0, _⟩ =>
    show ((o.val * 32 + k.val / 128) * 128 + k.val % 128) / 4096 = o.val
    omega
  | ⟨1, _⟩ =>
    show ((o.val * 32 + k.val / 128) * 128 + k.val % 128) % 4096 = k.val
    omega

/-- The scale under entry `(o, g, l)`: the two broadcasts drop the lane, the transpose swaps row and group, the
    reshape and the slice add the last coordinate `0`: `sz[g, o, 0]`. -/
theorem s_index (o k : Fin 4096) :
    idx_main_v1 (idx_main_v2 (idx_main_v9 (idx_main_v10 (idx_main_v11 (ix3 o (Cert.Spec.grp k) (lane k))))))
      = ix3 (Cert.Spec.grp k) o (0 : Fin 2) := by
  have ho := o.isLt; have hk := k.isLt
  funext a; refine Fin.ext ?_
  match a with
  | ⟨0, _⟩ =>
    show (k.val / 128 * 4096 + o.val) / 4096 = k.val / 128
    omega
  | ⟨1, _⟩ =>
    show (k.val / 128 * 4096 + o.val) / 1 % 4096 = o.val
    omega
  | ⟨2, _⟩ => rfl

/-- The zero point under entry `(o, g, l)`, by the same maps with the slice starting at `1`: `sz[g, o, 1]`. -/
theorem z_index (o k : Fin 4096) :
    idx_main_v3 (idx_main_v4 (idx_main_v13 (idx_main_v14 (idx_main_v15 (ix3 o (Cert.Spec.grp k) (lane k))))))
      = ix3 (Cert.Spec.grp k) o (1 : Fin 2) := by
  have ho := o.isLt; have hk := k.isLt
  funext a; refine Fin.ext ?_
  match a with
  | ⟨0, _⟩ =>
    show (k.val / 128 * 4096 + o.val) / 4096 = k.val / 128
    omega
  | ⟨1, _⟩ =>
    show (k.val / 128 * 4096 + o.val) / 1 % 4096 = o.val
    omega
  | ⟨2, _⟩ => rfl

/-- THE REFERENCE IS THE SHIFTED-WEIGHT PRODUCT. Entry `(b, r, o)` of the last stage is the contraction's sum over
    the columns `k`; each term is `x[b,r,k]` times the weight's entry, which the pointwise stages give as
    `(q[o,k] - 8)·sz[k/128,o,0] + sz[k/128,o,1]` at the indices computed above. -/
theorem ref_eq (a0 : (⟨S4x2048x4096, .f32⟩ : BufTy).Contents (Elt Ideal))
    (a1 : (⟨S4096x4096, .i32⟩ : BufTy).Contents (Elt Ideal))
    (a2 : (⟨S32x4096x2, .f32⟩ : BufTy).Contents (Elt Ideal)) :
    val_main_v20 (F := Ideal) a0 a1 a2 = Cert.Spec.GR a0 a1 a2 := by
  funext i
  obtain ⟨b, r, o, rfl⟩ : ∃ (b : Fin 4) (r : Fin 2048) (o : Fin 4096), i = ix3 b r o := ⟨i 0, i 1, i 2, eq_ix3 i⟩
  rw [val_main_v20_apply, val_main_v19_apply]
  show _ = ∑ k : Fin 4096, a0 (ix3 b r k) * Cert.Spec.wR a1 a2 o k
  refine Finset.sum_congr rfl fun k _ => ?_
  rw [val_main_v0_apply, val_main_v18_apply, val_main_v17_apply, val_main_v16_apply, val_main_v12_apply,
    val_main_v8_apply, val_main_v6_apply, val_main_v5_apply, val_main_v7_apply, val_main_cst_apply,
    val_main_v11_apply, val_main_v10_apply, val_main_v9_apply, val_main_v2_apply, val_main_v1_apply,
    val_main_v15_apply, val_main_v14_apply, val_main_v13_apply, val_main_v4_apply, val_main_v3_apply,
    lhs_index, rhs_index, q_index, s_index, z_index]
  rfl

end Cert.ReferenceIdeal.RefValue

end
-- ==== Proof.Law.lean ====
/-
  The algebraic law between the two arrangements of the dequantized weight.

  One program subtracts the shift from the integer and then scales, `(q - 8)·s + z`; the other scales the raw integer
  and uses a zero point from which `8·s` has been taken off, `q·s + (z - 8·s)`. Over the real numbers these are one
  value by distributivity. Over the extended reals distributivity fails at the infinities, so the law is stated for a
  scale and a zero point that are real numbers: the integer's value and the shift `8` are real, every sum and
  product is then the extended reals' image of the real one, and the identity is the real identity.
-/
import proofs.«101009_j1726576857544_2_alg».proof.Proof.Spec

noncomputable section

namespace Cert.Spec

open Idealize.ShloMosaic Idealize.ShloMosaic.ValueIdx

/-- The shift's word `0x41000000` has sign `0`, exponent field `130` and fraction `0`: a normal number,
    `2^23 · 2^(130 - 127 - 23) = 8`; in particular a real number and not an infinity. -/
theorem c8_real : ∃ r : ℝ, c8 = (r : EReal) := by
  refine ⟨8, ?_⟩
  simp [c8, Ideal.ofBits, Ideal.ieee, -EReal.coe_mul]
  norm_num

/-- With a real scale `s` and a real zero point `z`: `(q - 8)·s + z = q·s + (z - 8·s)`. Every term is the image of a
    real number, the images of sums, differences and products are the sums, differences and products of the images,
    and in the reals both sides are `q·s - 8·s + z`. -/
theorem wShifted_eq_wFolded (q : BitVec 32) (s z : ℝ) :
    wShifted q (s : EReal) (z : EReal) = wFolded q (s : EReal) (zFolded (s : EReal) (z : EReal)) := by
  obtain ⟨r, hr⟩ := c8_real
  unfold wShifted wFolded zFolded
  rw [hr, ← EReal.coe_sub, ← EReal.coe_mul, ← EReal.coe_add, ← EReal.coe_mul, ← EReal.coe_mul, ← EReal.coe_sub,
    ← EReal.coe_add]
  exact congrArg _ (by ring)

/-- The two forms of the weight's entry `(o, k)` agree when the scales and zero points are real: the entry uses
    only the scale and the zero point of row `o` and of the group of column `k`. -/
theorem wR_eq_wK (a1 : (⟨2, ![4096, 4096]⟩ : Shape).Idx → BitVec 32) (a2 : (⟨3, ![32, 4096, 2]⟩ : Shape).Idx → EReal)
    (hfin : ∀ j, ∃ r : ℝ, a2 j = (r : EReal)) (o k : Fin 4096) : wR a1 a2 o k = wK a1 a2 o k := by
  obtain ⟨s, hs⟩ := hfin (ix3 (grp k) o (0 : Fin 2))
  obtain ⟨z, hz⟩ := hfin (ix3 (grp k) o (1 : Fin 2))
  unfold wR wK
  rw [hs, hz]
  exact wShifted_eq_wFolded _ s z

/-- The two result arrays agree when the scales and zero points are real: entry by entry the same sum over the
    columns, term by term the same product, since the weights agree. Nothing is asked of the activations. -/
theorem GR_eq_GK (a0 : (⟨3, ![4, 2048, 4096]⟩ : Shape).Idx → EReal) (a1 : (⟨2, ![4096, 4096]⟩ : Shape).Idx → BitVec 32)
    (a2 : (⟨3, ![32, 4096, 2]⟩ : Shape).Idx → EReal) (hfin : ∀ j, ∃ r : ℝ, a2 j = (r : EReal)) :
    GR a0 a1 a2 = GK a0 a1 a2 := by
  funext i
  unfold GR GK out
  exact Finset.sum_congr rfl fun k _ => congrArg _ (wR_eq_wK a1 a2 hfin (i 2) k)

end Cert.Spec

end
-- ==== Proof.Finite.lean ====
/-
  From the precondition to "every scale and every zero point is a real number".

  The precondition is the printed predicate: for the activations and for the scales-and-zeros array it compares
  the absolute value of every entry with `+∞` (the word `0x7F800000`), takes the conjunction of all the comparisons
  (a reduction by `and` over every axis, starting from `1`), and takes the `and` of the two results; the claim says
  the final bit is `1`. A conjunction that is `1` had `1` in every place, so for every entry `x` of the
  scales-and-zeros array `|x| < +∞`. On the extended reals `|x| = max x (-x)` is `+∞` at both infinities, so `x` is
  neither of them: it is a real number.
-/
import proofs.«101009_j1726576857544_2_alg».proof.Defs
import proofs.«101009_j1726576857544_2_alg».proof.Proof.Gen.Pre_finite_inputs
import Idealize.ShloMosaic.Lib.ReduceAll
import Idealize.ShloMosaic.Lib.ValueIdx

noncomputable section

namespace Cert.Proof.Finite

open Idealize.ShloMosaic Idealize.SL.Sem

/-- The scalar shape has exactly one index (the empty tuple of coordinates). -/
instance : Subsingleton Cert.Pre_finite_inputs.S_.Idx := ⟨fun a b => funext fun d => d.elim0⟩

/-- The word `0x7F800000` (sign `0`, exponent field all ones, fraction `0`) is `+∞`. -/
theorem inf_word : Ideal.ofBits .f32 0x7F800000#32 = (⊤ : EReal) := by
  simp [Ideal.ofBits, Ideal.ieee]

/-- An extended real whose absolute value compares below `+∞` is a real number: at `⊥` and at `⊤` the absolute
    value `max x (-x)` is `⊤`, which is not below itself. -/
theorem real_of_abs_lt_inf (x : EReal)
    (h : Ideal.cmp .olt (max x (-x)) (Ideal.ofBits .f32 0x7F800000#32) = 1#1) : ∃ r : ℝ, x = (r : EReal) := by
  rw [inf_word] at h
  induction x using EReal.rec with
  | bot => simp [Ideal.cmp] at h
  | coe r => exact ⟨r, rfl⟩
  | top => simp [Ideal.cmp] at h

/-- Under the precondition every entry of the scales-and-zeros argument is a real number, on every device: the
    predicate's final `and` gives the second conjunction the value `1`, that conjunction over all three axes gives
    the comparison `|x| < +∞` the value `1` at every index, and the lemma above reads the comparison. -/
theorem a2_real [Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    ∀ j, ∃ r : ℝ,
      m ((c.tc : Thread Cert.KernelIdeal.nD Cert.KernelIdeal.τ).loc Cert.KernelIdeal.main_arg2) j = (r : EReal) := by
  intro j
  have h0 := congrFun (h c) ValueIdx.ix0
  dsimp only [Cert.Pre_finite_inputs.fn] at h0
  obtain ⟨_, h2⟩ := IntOp.andi_eq_one.1 h0
  exact real_of_abs_lt_inf _ (Host.reduce_andi_all _ _ _ _ _ h2 j)

end Cert.Proof.Finite

end
-- ==== Proof.Claims.lean ====
/-
  The certificate's five claims, assembled.

  Three frames: each program runs to the end from any memory with zero counters and leaves its argument arrays as
  launched; for the two kernels that is the generated frame, for the reference it is the run of its host operations
  with the result's conjunct dropped. The idealization rewrote no operation, so its claim is `True`.

  The algebraic claim: from memories that agree on the three arguments, both programs end with the SAME result array,
  namely the folded-weight product `GK` of the arguments. On the kernel's side that is the kernel's run with its
  result named, followed by the value equation "the named result is `GK` of the arguments" (taken here as a
  hypothesis `KValueEq`, proved where the regions are read). On the reference's side the run gives the operations'
  composed term, which is the shifted-weight product `GR` of the reference's arguments; those are the kernel's
  arguments; and `GR = GK` because the precondition makes every scale and zero point a real number, where
  `(q - 8)·s + z = q·s + (z - 8·s)`.
-/
import proofs.«101009_j1726576857544_2_alg».proof.Defs
import proofs.«101009_j1726576857544_2_alg».proof.Proof.Gen.Kernel.Frame
import proofs.«101009_j1726576857544_2_alg».proof.Proof.Gen.KernelIdeal.Frame
import proofs.«101009_j1726576857544_2_alg».proof.Proof.Gen.ReferenceIdeal.Run
import proofs.«101009_j1726576857544_2_alg».proof.Proof.Gen.Pre_finite_inputs
import proofs.«101009_j1726576857544_2_alg».proof.Proof.Spec
import proofs.«101009_j1726576857544_2_alg».proof.Proof.KRun
import proofs.«101009_j1726576857544_2_alg».proof.Proof.RefSide
import proofs.«101009_j1726576857544_2_alg».proof.Proof.Law
import proofs.«101009_j1726576857544_2_alg».proof.Proof.Finite

noncomputable section

namespace Cert.Proof.Claims

open Idealize.ShloMosaic Idealize.SL.Sem

/-- The kernel's value equation: on every device the result array the kernel's run names is the folded-weight
    product of the three argument arrays as launched. -/
abbrev KValueEq : Prop :=
  ∀ (m : (ℓ : Loc Cert.KernelIdeal.nD Cert.KernelIdeal.τ Cert.KernelIdeal.sig) → Buf (Elt Ideal) ℓ)
    (ρ : Dev Cert.KernelIdeal.nD → PrngReg) (c : Dev Cert.KernelIdeal.nD),
    (Cert.KernelIdeal.Gen.W4 (F := Ideal) m ρ c (Proc.devRef .tc Cert.KernelIdeal.main_v13) :
        Cert.KernelIdeal.S4x2048x4096.Idx → EReal)
      = Cert.Spec.GK (m ((c.tc : Thread Cert.KernelIdeal.nD Cert.KernelIdeal.τ).loc Cert.KernelIdeal.main_arg0))
          (m ((c.tc : Thread Cert.KernelIdeal.nD Cert.KernelIdeal.τ).loc Cert.KernelIdeal.main_arg1))
          (m ((c.tc : Thread Cert.KernelIdeal.nD Cert.KernelIdeal.τ).loc Cert.KernelIdeal.main_arg2))

/-- The kernel as printed runs and leaves its arguments unchanged (the generated frame; the precondition is not
    used). -/
theorem frame_k : Cert.frame_Kernel := fun m ρ _ => Cert.Kernel.Gen.frame m ρ

/-- The idealized kernel runs and leaves its arguments unchanged (the generated frame). -/
theorem frame_ki : Cert.frame_KernelIdeal := fun m ρ _ => Cert.KernelIdeal.Gen.frame m ρ

/-- The reference runs and leaves its arguments unchanged: its run's post without the result's conjunct. -/
theorem frame_ri : Cert.frame_ReferenceIdeal := fun m ρ _ =>
  (θ_run Cert.ReferenceIdeal.defs _ _).mono (fun _ h c => (h c).2) (Cert.ReferenceIdeal.Value.run (F := Ideal) m ρ)

/-- The idealization changed no operation: nothing to preserve. -/
theorem preserves : Cert.preserves_Kernel_KernelIdeal := trivial

/-- Both programs end at the folded-weight product of the kernel's arguments. The kernel: its run, then the value
    equation. The reference: its run's term is the last stage of its operations, that stage is the shifted-weight
    product of the reference's arguments, the arguments agree with the kernel's, and the shifted and the folded
    products agree because under the precondition every scale and zero point is a real number. -/
theorem algebraic (hK : KValueEq) : Cert.algebraic_KernelIdeal_ReferenceIdeal := by
  intro m ρ m' ρ' hpre hagree
  refine ⟨fun c => Cert.Spec.GK (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    (θ_run Cert.KernelIdeal.defs _ _).mono (fun _ h c => ⟨(h c).1.trans (hK m ρ c), (h c).2⟩)
      (Cert.KernelIdeal.KRun.run (F := Ideal) m ρ), ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v20_eq, Cert.ReferenceIdeal.RefValue.ref_eq, (hagree c).1,
    (hagree c).2.1, (hagree c).2.2]
  exact Cert.Spec.GR_eq_GK _ _ _ (Cert.Proof.Finite.a2_real m hpre c)

/-- Everything the certificate claims, behind the generated witnesses of the programs' stated side conditions, from
    the kernel's value equation. -/
theorem claim_of (hK : KValueEq) : Cert.Claim :=
  ⟨Cert.Kernel.Gen.facts, Cert.KernelIdeal.Gen.facts, Cert.ReferenceIdeal.Gen.facts, Cert.Pre_finite_inputs.Gen.facts,
    frame_k, frame_ki, frame_ri, preserves, algebraic hK⟩

end Cert.Proof.Claims

end
-- ==== Proof.HostOps.lean ====
import proofs.«101009_j1726576857544_2_alg».proof.Proof.Gen.KernelIdeal.Frame
import proofs.«101009_j1726576857544_2_alg».proof.Proof.Spec
import Idealize.ShloMosaic.Lib.Pipeline.Value
import Idealize.ShloMosaic.Lib.ValueIdx
import Idealize.ShloMosaic.Lib.StableHlo.Run

noncomputable section

namespace Cert.KernelIdeal.HostOps

open Cert.KernelIdeal Cert.KernelIdeal.Gen Idealize.ShloMosaic Idealize.ShloMosaic.TcCoe Idealize.SL.Sem
open Idealize.ShloMosaic.StableHlo Idealize.ShloMosaic.ValueIdx

variable (m : (ℓ : Loc nD τ sig) → Buf (Elt Ideal) ℓ) (ρ : Dev nD → PrngReg) (c : Dev nD)

/-! # The host operations around the two regions, read entry by entry

Before the first region the program re-lays its arguments: the activations `x[4,2048,4096]` are flattened to
`[8192,4096]` (and narrowed in format, which changes nothing over the extended reals); the scale plane
`sz[·,·,0]` and the zero-point plane `sz[·,·,1]` of the third argument are cut out, their unit axis dropped, the
zero points shifted by eight scales, and both planes transposed to `[4096,32]`. After the second region the
`[8192,4096]` product is cut back into `[4,2048,4096]`. Every one of these operations copies entries (or combines the
entries at ONE position), so each resulting array read at an index is a closed expression in the arguments at an
index. The integer weight is not touched by any of them.

Each buffer is first identified, as a whole array, with the operations' term over the launch contents (the run of
the straight line of operations is a fold, read one operation at a time); then that term is read at an index:
a reshape keeps the row-major position, a slice adds its offsets, a transpose swaps the two coordinates, a broadcast
of a scalar reads the scalar. -/

/-! ## The whole arrays at the first region's entry -/

/-- No host operation writes the integer weight: the first region finds it as launched. -/
theorem V1_arg1 : Gen.V1 m ρ c main_arg1 = m ((c : Thread nD τ).loc main_arg1) := by
  show StableHlo.after hostOps0 (W0 m ρ c) (Proc.devRef .tc main_arg1) = _
  after_results
  all_goals rfl

/-- The activations at the first region's entry: the argument flattened to two axes, then narrowed in format. -/
theorem V1_v1_eq :
    (Gen.V1 m ρ c main_v1 : S8192x4096.Idx → EReal)
      = (truncf .bf16 (shapeCast S8192x4096 (m ((c : Thread nD τ).loc main_arg0) : S4x2048x4096.Idx → EReal)
          Gen.shapeCasts_S4x2048x4096_S8192x4096) Gen.bitsLt_bf16_f32 : FVec Ideal S8192x4096 .bf16) := by
  show StableHlo.after hostOps0 (W0 m ρ c) (Proc.devRef .tc main_v1) = _
  after_results
  all_goals rfl

/-- The scales at the first region's entry: plane 0 of the third argument, its unit axis dropped, transposed. -/
theorem V1_v9_eq :
    (Gen.V1 m ρ c main_v9 : S4096x32.Idx → EReal)
      = transpose S4096x32 [1, 0]
          (shapeCast S32x4096
            (extractStridedSlice S32x4096x1 ![0, 0, 0] (m ((c : Thread nD τ).loc main_arg2) : S32x4096x2.Idx → EReal)
              Gen.slices_S32x4096x2_S32x4096x1_0_0_0)
            Gen.shapeCasts_S32x4096x1_S32x4096)
          Gen.transposes_S32x4096_S4096x32_1_0 := by
  show StableHlo.after hostOps0 (W0 m ρ c) (Proc.devRef .tc main_v9) = _
  after_results
  all_goals rfl

/-- The folded zero points at the first region's entry: plane 1 minus (the constant 8, broadcast) times plane 0,
    transposed. -/
theorem V1_v10_eq :
    (Gen.V1 m ρ c main_v10 : S4096x32.Idx → EReal)
      = transpose S4096x32 [1, 0]
          (subf (F := Ideal) (s := S32x4096) (φ := .f32)
            (shapeCast S32x4096
              (extractStridedSlice S32x4096x1 ![0, 0, 1] (m ((c : Thread nD τ).loc main_arg2) : S32x4096x2.Idx → EReal)
                Gen.slices_S32x4096x2_S32x4096x1_0_0_1)
              Gen.shapeCasts_S32x4096x1_S32x4096)
            (mulf (F := Ideal) (s := S32x4096) (φ := .f32)
              (broadcastInDim S32x4096 ![] Gen.bcast_S_S32x4096 (constant (F := Ideal) S_ .f32 0x41000000#32))
              (shapeCast S32x4096
                (extractStridedSlice S32x4096x1 ![0, 0, 0] (m ((c : Thread nD τ).loc main_arg2) : S32x4096x2.Idx → EReal)
                  Gen.slices_S32x4096x2_S32x4096x1_0_0_0)
                Gen.shapeCasts_S32x4096x1_S32x4096)))
          Gen.transposes_S32x4096_S4096x32_1_0 := by
  show StableHlo.after hostOps0 (W0 m ρ c) (Proc.devRef .tc main_v10) = _
  after_results
  all_goals rfl

/-! ## The re-layings read at an index, over any array -/

/-- Plane 0 of a `[32,4096,2]` array with its unit axis dropped, at `(g, o)`: the slice starts at offset 0 on every
    axis, and dropping an axis of extent one keeps the row-major position `g·4096 + o`. -/
theorem plane0_apply (x2 : S32x4096x2.Idx → EReal) (g : Fin 32) (o : Fin 4096) :
    shapeCast S32x4096 (extractStridedSlice S32x4096x1 ![0, 0, 0] x2 Gen.slices_S32x4096x2_S32x4096x1_0_0_0)
        Gen.shapeCasts_S32x4096x1_S32x4096 (ix2 g o)
      = x2 (ix3 g o (0 : Fin 2)) := by
  refine (shapeCast_apply _ Gen.shapeCasts_S32x4096x1_S32x4096 (ix2 g o) (ix3 g o (0 : Fin 1)) (by
    rewrite [Shape.rowMajor_val_three, Shape.rowMajor_val_two]
    show (g.val * 4096 + o.val) * 1 + 0 = g.val * 4096 + o.val
    omega)).trans ?_
  exact extractStridedSlice_apply ![0, 0, 0] x2 Gen.slices_S32x4096x2_S32x4096x1_0_0_0 (ix3 g o (0 : Fin 1)) (ix3 g o (0 : Fin 2))
    (fun a => match a with
      | ⟨0, _⟩ => by show g.val = 0 + g.val; omega
      | ⟨1, _⟩ => by show o.val = 0 + o.val; omega
      | ⟨2, _⟩ => by show 0 = 0 + 0; omega)

/-- Plane 1 likewise: the slice starts at offset 1 on the last axis. -/
theorem plane1_apply (x2 : S32x4096x2.Idx → EReal) (g : Fin 32) (o : Fin 4096) :
    shapeCast S32x4096 (extractStridedSlice S32x4096x1 ![0, 0, 1] x2 Gen.slices_S32x4096x2_S32x4096x1_0_0_1)
        Gen.shapeCasts_S32x4096x1_S32x4096 (ix2 g o)
      = x2 (ix3 g o (1 : Fin 2)) := by
  refine (shapeCast_apply _ Gen.shapeCasts_S32x4096x1_S32x4096 (ix2 g o) (ix3 g o (0 : Fin 1)) (by
    rewrite [Shape.rowMajor_val_three, Shape.rowMajor_val_two]
    show (g.val * 4096 + o.val) * 1 + 0 = g.val * 4096 + o.val
    omega)).trans ?_
  exact extractStridedSlice_apply ![0, 0, 1] x2 Gen.slices_S32x4096x2_S32x4096x1_0_0_1 (ix3 g o (0 : Fin 1)) (ix3 g o (1 : Fin 2))
    (fun a => match a with
      | ⟨0, _⟩ => by show g.val = 0 + g.val; omega
      | ⟨1, _⟩ => by show o.val = 0 + o.val; omega
      | ⟨2, _⟩ => by show 1 = 1 + 0; omega)

/-- A `[32,4096]` array transposed, at `(o, g)`: the array at `(g, o)`. -/
theorem swap_apply (y : S32x4096.Idx → EReal) (o : Fin 4096) (g : Fin 32) :
    transpose S4096x32 [1, 0] y Gen.transposes_S32x4096_S4096x32_1_0 (ix2 o g) = y (ix2 g o) :=
  transpose_apply [1, 0] y Gen.transposes_S32x4096_S4096x32_1_0 (ix2 o g) (ix2 g o) (fun b => match b with
    | ⟨0, _⟩ => rfl
    | ⟨1, _⟩ => rfl)

/-! ## The four arrays the regions read, at an index -/

/-- Row `r` of the flattened activations is row `r % 2048` of batch `r / 2048`: the two row-major positions
    `((r / 2048)·2048 + r % 2048)·4096 + k` and `r·4096 + k` agree; the change of format is the identity. -/
theorem V1_v1 (r : Fin 8192) (k : Fin 4096) :
    (Gen.V1 m ρ c main_v1 : S8192x4096.Idx → EReal) (ix2 r k)
      = (m ((c : Thread nD τ).loc main_arg0) : S4x2048x4096.Idx → EReal)
          (ix3 (⟨r.val / 2048, by have := r.isLt; omega⟩ : Fin 4) (⟨r.val % 2048, Nat.mod_lt _ (by decide)⟩ : Fin 2048) k) := by
  refine (congrFun (V1_v1_eq m ρ c) (ix2 r k)).trans ?_
  show shapeCast S8192x4096 (m ((c : Thread nD τ).loc main_arg0) : S4x2048x4096.Idx → EReal)
    Gen.shapeCasts_S4x2048x4096_S8192x4096 (ix2 r k) = _
  exact shapeCast_apply _ Gen.shapeCasts_S4x2048x4096_S8192x4096 (ix2 r k) _ (by
    rewrite [Shape.rowMajor_val_three, Shape.rowMajor_val_two]
    show (r.val / 2048 * 2048 + r.val % 2048) * 4096 + k.val = r.val * 4096 + k.val
    omega)

/-- The scale of row `o` and group `g`: entry `(g, o, 0)` of the third argument. -/
theorem V1_v9 (o : Fin 4096) (g : Fin 32) :
    (Gen.V1 m ρ c main_v9 : S4096x32.Idx → EReal) (ix2 o g)
      = (m ((c : Thread nD τ).loc main_arg2) : S32x4096x2.Idx → EReal) (ix3 g o (0 : Fin 2)) := by
  refine (congrFun (V1_v9_eq m ρ c) (ix2 o g)).trans ?_
  rw [swap_apply, plane0_apply]

/-- The folded zero point of row `o` and group `g`: the zero point `(g, o, 1)` minus eight times the scale
    `(g, o, 0)`. The difference and the product are taken entry by entry, and the broadcast scalar reads the
    constant's word everywhere — the word the specification names. -/
theorem V1_v10 (o : Fin 4096) (g : Fin 32) :
    (Gen.V1 m ρ c main_v10 : S4096x32.Idx → EReal) (ix2 o g)
      = Cert.Spec.zFolded ((m ((c : Thread nD τ).loc main_arg2) : S32x4096x2.Idx → EReal) (ix3 g o (0 : Fin 2)))
          ((m ((c : Thread nD τ).loc main_arg2) : S32x4096x2.Idx → EReal) (ix3 g o (1 : Fin 2))) := by
  refine (congrFun (V1_v10_eq m ρ c) (ix2 o g)).trans ?_
  rw [swap_apply, subf_apply, mulf_apply, plane1_apply, plane0_apply,
    broadcastInDim_apply _ Gen.bcast_S_S32x4096 _ (ix2 g o) ix0 (fun a => a.elim0)]
  rfl

/-! ## The result after the second region -/

/-- The returned array is the second region's `[8192,4096]` result cut into four batches of 2048 rows: entry
    `(b, r, o)` is row `2048·b + r`, the two row-major positions being equal. -/
theorem W4_v13 (b : Fin 4) (r : Fin 2048) (o : Fin 4096) :
    (Gen.W4 m ρ c (Proc.devRef .tc main_v13) : S4x2048x4096.Idx → EReal) (ix3 b r o)
      = (Gen.W3 m ρ c (Proc.devRef .tc main_v12) : S8192x4096.Idx → EReal)
          (ix2 (⟨2048 * b.val + r.val, by have := b.isLt; have := r.isLt; omega⟩ : Fin 8192) o) := by
  have e : (Gen.W4 m ρ c (Proc.devRef .tc main_v13) : S4x2048x4096.Idx → EReal)
      = shapeCast S4x2048x4096 (Gen.W3 m ρ c (Proc.devRef .tc main_v12) : S8192x4096.Idx → EReal)
          Gen.shapeCasts_S8192x4096_S4x2048x4096 := by
    show StableHlo.after hostOps2 (W3 m ρ c) (Proc.devRef .tc main_v13) = _
    generalize W3 m ρ c = W
    after_results
    all_goals rfl
  refine (congrFun e (ix3 b r o)).trans ?_
  exact shapeCast_apply _ Gen.shapeCasts_S8192x4096_S4x2048x4096 (ix3 b r o) _ (by
    rewrite [Shape.rowMajor_val_two, Shape.rowMajor_val_three]
    show (2048 * b.val + r.val) * 4096 + o.val = (b.val * 2048 + r.val) * 4096 + o.val
    omega)

end Cert.KernelIdeal.HostOps

end
-- ==== Proof.Dequant.lean ====
/-
  Region 0, the dequantization: what the first kernel leaves in the weight array.

  The kernel walks the 4096 x 4096 integer array in 8 blocks of 512 rows. For each block it reads the 512 x 4096
  integers, the 512 x 32 scales and the 512 x 32 folded zero points of those rows (one pair per row and per group
  of 128 columns), and stores the 32 column tiles of 128 columns one by one: tile `g` is the integers of columns
  `128 g .. 128 g + 127`, converted exactly, times column `g` of the scales plus column `g` of the zero points, each
  512 x 1 column repeated along the 128 lanes.

  Here: the tile at an index (`tile_apply`); the block after the body as one function of the block's index
  (`block_eq`: the 32 tiles cover the block and each is that function on its rectangle); what a grid point writes
  back is its block of the whole-array function `W` (`flushed_eq`); the 8 blocks cover the array (`covered`); so the
  array ends holding `W` (`final`). Everything is read over the extended reals and is generic in the contents the
  region finds in its buffers.
-/
import proofs.«101009_j1726576857544_2_alg».proof.Proof.Gen.KernelIdeal.Frame
import proofs.«101009_j1726576857544_2_alg».proof.Proof.Spec
import Idealize.ShloMosaic.Lib.Pipeline.Value
import Idealize.ShloMosaic.Lib.ValueIdx

noncomputable section

namespace Cert.KernelIdeal.Dequant

open Cert.KernelIdeal Cert.KernelIdeal.Gen Idealize.ShloMosaic Idealize.ShloMosaic.TcCoe Idealize.SL.Sem
open Idealize.ShloMosaic.Pipeline (Dat)
open Idealize.ShloMosaic.ValueIdx
open Cert.Spec (grp wFolded)

/-- One stored tile of the dequantized weight: a 512 x 128 block of integers, converted exactly, times the block's
    scale column plus its folded zero-point column. The two columns are 512 x 1 (one value per row) and are repeated
    along the 128 lanes before the pointwise product and sum; the final change of format is the identity. -/
def tile (q : Vec Ideal S512x128 .i32) (s z : Vec Ideal S512x1 .f32) : FVec Ideal S512x128 .bf16 :=
  truncf .bf16 (addf (mulf (sitofp .f32 q)
      (broadcastTo S512x128 (shapeCast S512x1 s shapeCasts_S512x1_S512x1) broadcasts_S512x1_S512x128))
      (broadcastTo S512x128 (shapeCast S512x1 z shapeCasts_S512x1_S512x1) broadcasts_S512x1_S512x128)) bitsLt_bf16_f32

/-- A 512 x 1 column repeated along 128 lanes, read at row `p` and lane `l`, is the column at row `p`:
    the operand's second axis has extent one, so its coordinate there is zero whatever the lane. -/
theorem column_lanes (s : Vec Ideal S512x1 .f32) (p : Fin 512) (l : Fin 128) :
    broadcastTo S512x128 (shapeCast S512x1 s shapeCasts_S512x1_S512x1) broadcasts_S512x1_S512x128 (ix2 p l)
      = s (ix2 p (0 : Fin 1)) := by
  rw [shapeCast_self]
  refine broadcastTo_apply s broadcasts_S512x1_S512x128 (ix2 p l) (ix2 p (0 : Fin 1)) ?_
  intro a
  match a with
  | ⟨0, _⟩ => rfl
  | ⟨1, _⟩ => rfl

/-- The tile at row `p`, lane `l`: the integer there times the row's scale plus the row's folded zero point. -/
theorem tile_apply (q : Vec Ideal S512x128 .i32) (s z : Vec Ideal S512x1 .f32) (p : Fin 512) (l : Fin 128) :
    tile q s z (ix2 p l) = wFolded (q (ix2 p l)) (s (ix2 p (0 : Fin 1))) (z (ix2 p (0 : Fin 1))) := by
  unfold tile wFolded
  rw [truncf_apply, addf_apply, mulf_apply, column_lanes, column_lanes]
  rfl

/-- What the body leaves in the output block, as ONE function of the block's index `y = (row, column)`: the integer at
    `y` times the scale of the row and of the column's group, plus that pair's folded zero point. The block spans all
    4096 columns, so the group of a column inside the block is the group of the array's column. -/
def blockG (x0 : Vec Ideal S512x4096 .i32) (x1 x2 : Vec Ideal S512x32 .f32) : S512x4096.Idx → EReal :=
  fun y => wFolded (x0 y) (x1 (ix2 (y 0) (grp (y 1)))) (x2 (ix2 (y 0) (grp (y 1))))

/-- One store of the body. It writes the rectangle of all 512 rows and the 128 columns from `c = 128 * g` on, and its
    payload is the tile of the integers loaded from that same rectangle and of the two columns loaded from the
    512 x 1 rectangle at column `g` of the scale and zero-point blocks. At the rectangle's local index `(p, l)` the
    block index is `(p, c + l)`, whose column has group `(128 * g + l) / 128 = g` because `l < 128`; so the payload is
    `blockG` at the rectangle's index. -/
theorem piece_eq (x0 : Vec Ideal S512x4096 .i32) (x1 x2 : Vec Ideal S512x32 .f32)
    (c g : Nat) (hc : c = 128 * g)
    (inbq : ∀ a, (![0, c] : Fin 2 → Nat) a + S512x128.size a ≤ S512x4096.size a)
    (inbs : ∀ a, (![0, g] : Fin 2 → Nat) a + S512x1.size a ≤ S512x32.size a)
    (x : S512x128.Idx) :
    tile (View.ld x0 (Rect.unit (s := S512x4096) ![0, c] S512x128.size inbq))
        (View.ld x1 (Rect.unit (s := S512x32) ![0, g] S512x1.size inbs))
        (View.ld x2 (Rect.unit (s := S512x32) ![0, g] S512x1.size inbs)) x
      = blockG x0 x1 x2 ((Rect.unit (s := S512x4096) ![0, c] S512x128.size inbq).emb x) := by
  obtain ⟨p, l, rfl⟩ : ∃ (p : Fin 512) (l : Fin 128), x = ix2 p l := ⟨x 0, x 1, eq_ix2 x⟩
  rw [tile_apply]
  have hs : (Rect.unit (s := S512x32) ![0, g] S512x1.size inbs).idx (ix2 p (0 : Fin 1))
      = ix2 (((Rect.unit (s := S512x4096) ![0, c] S512x128.size inbq).emb (ix2 p l)) 0)
          (grp (((Rect.unit (s := S512x4096) ![0, c] S512x128.size inbq).emb (ix2 p l)) 1)) := by
    funext a; apply Fin.ext
    match a with
    | ⟨0, _⟩ => show 0 + 1 * p.val = 0 + 1 * p.val; rfl
    | ⟨1, _⟩ => show g + 1 * 0 = (c + 1 * l.val) / 128; have := l.isLt; omega
  show wFolded (x0 ((Rect.unit (s := S512x4096) ![0, c] S512x128.size inbq).idx (ix2 p l)))
      (x1 ((Rect.unit (s := S512x32) ![0, g] S512x1.size inbs).idx (ix2 p (0 : Fin 1))))
      (x2 ((Rect.unit (s := S512x32) ![0, g] S512x1.size inbs).idx (ix2 p (0 : Fin 1)))) = _
  rw [hs]
  rfl

/-- No piece: nothing to show. -/
theorem pieces_nil (G : S512x4096.Idx → EReal) :
    ∀ p ∈ ([] : List (View.Piece (Elt Ideal) S512x4096 .bf16)), ∀ x : p.1.shape.Idx, p.2 x = G (p.1.emb x) :=
  fun p hp => absurd hp List.not_mem_nil

/-- A list of pieces agrees with `G` when its head does and its tail does. -/
theorem pieces_cons {G : S512x4096.Idx → EReal} {r : Rect S512x4096} {w : r.shape.Idx → EReal}
    {L : List (View.Piece (Elt Ideal) S512x4096 .bf16)} (hw : ∀ x, w x = G (r.emb x))
    (hL : ∀ p ∈ L, ∀ x : p.1.shape.Idx, p.2 x = G (p.1.emb x)) :
    ∀ p ∈ ((⟨r, w⟩ : View.Piece (Elt Ideal) S512x4096 .bf16) :: L), ∀ x : p.1.shape.Idx, p.2 x = G (p.1.emb x) := by
  intro p hp
  rcases List.mem_cons.mp hp with rfl | hp'
  · exact hw
  · exact hL p hp'

/-- THE BLOCK. The body's 32 stores are the 32 column tiles of the block, group 31 first and group 0 last; each
    payload is `tile` of the loads at its group (the printed body spells the same term through several auxiliary
    definitions, which unfold to it), so each agrees with `blockG` on its rectangle; the tiles cover the block, hence
    the block after the body is `blockG` of the three input blocks. -/
theorem out_blockG (x0 : Vec Ideal S512x4096 .i32) (x1 x2 : Vec Ideal S512x32 .f32) :
    out0_3 x0 x1 x2 = blockG x0 x1 x2 := by
  funext y
  unfold out0_3
  refine View.canon_apply_of_pieces (Val := Elt Ideal) (S := S512x4096) (e := .bf16) (blockG x0 x1 x2) _ ?_ y (cover0_3 _ _ _ _ _ _ _ _ _ _ _ _ _ _ _ _ _ _ _ _ _ _ _ _ _ _ _ _ _ _ _ _ y)
  exact (pieces_cons (fun x => piece_eq x0 x1 x2 3968 31 rfl _ _ x)
      (pieces_cons (fun x => piece_eq x0 x1 x2 3840 30 rfl _ _ x)
      (pieces_cons (fun x => piece_eq x0 x1 x2 3712 29 rfl _ _ x)
      (pieces_cons (fun x => piece_eq x0 x1 x2 3584 28 rfl _ _ x)
      (pieces_cons (fun x => piece_eq x0 x1 x2 3456 27 rfl _ _ x)
      (pieces_cons (fun x => piece_eq x0 x1 x2 3328 26 rfl _ _ x)
      (pieces_cons (fun x => piece_eq x0 x1 x2 3200 25 rfl _ _ x)
      (pieces_cons (fun x => piece_eq x0 x1 x2 3072 24 rfl _ _ x)
      (pieces_cons (fun x => piece_eq x0 x1 x2 2944 23 rfl _ _ x)
      (pieces_cons (fun x => piece_eq x0 x1 x2 2816 22 rfl _ _ x)
      (pieces_cons (fun x => piece_eq x0 x1 x2 2688 21 rfl _ _ x)
      (pieces_cons (fun x => piece_eq x0 x1 x2 2560 20 rfl _ _ x)
      (pieces_cons (fun x => piece_eq x0 x1 x2 2432 19 rfl _ _ x)
      (pieces_cons (fun x => piece_eq x0 x1 x2 2304 18 rfl _ _ x)
      (pieces_cons (fun x => piece_eq x0 x1 x2 2176 17 rfl _ _ x)
      (pieces_cons (fun x => piece_eq x0 x1 x2 2048 16 rfl _ _ x)
      (pieces_cons (fun x => piece_eq x0 x1 x2 1920 15 rfl _ _ x)
      (pieces_cons (fun x => piece_eq x0 x1 x2 1792 14 rfl _ _ x)
      (pieces_cons (fun x => piece_eq x0 x1 x2 1664 13 rfl _ _ x)
      (pieces_cons (fun x => piece_eq x0 x1 x2 1536 12 rfl _ _ x)
      (pieces_cons (fun x => piece_eq x0 x1 x2 1408 11 rfl _ _ x)
      (pieces_cons (fun x => piece_eq x0 x1 x2 1280 10 rfl _ _ x)
      (pieces_cons (fun x => piece_eq x0 x1 x2 1152 9 rfl _ _ x)
      (pieces_cons (fun x => piece_eq x0 x1 x2 1024 8 rfl _ _ x)
      (pieces_cons (fun x => piece_eq x0 x1 x2 896 7 rfl _ _ x)
      (pieces_cons (fun x => piece_eq x0 x1 x2 768 6 rfl _ _ x)
      (pieces_cons (fun x => piece_eq x0 x1 x2 640 5 rfl _ _ x)
      (pieces_cons (fun x => piece_eq x0 x1 x2 512 4 rfl _ _ x)
      (pieces_cons (fun x => piece_eq x0 x1 x2 384 3 rfl _ _ x)
      (pieces_cons (fun x => piece_eq x0 x1 x2 256 2 rfl _ _ x)
      (pieces_cons (fun x => piece_eq x0 x1 x2 128 1 rfl _ _ x)
      (pieces_cons (fun x => piece_eq x0 x1 x2 0 0 rfl _ _ x)
      (pieces_nil _)))))))))))))))))))))))))))))))))

/-- The same with the function written out: the block after the body at `y = (row, column)` is the integer block at
    `y` times the scale block at `(row, column / 128)` plus the folded zero-point block there. -/
theorem block_eq (x0 : Vec Ideal S512x4096 .i32) (x1 x2 : Vec Ideal S512x32 .f32) :
    out0_3 (F := Ideal) x0 x1 x2
      = fun y => wFolded (x0 y) (x1 (ix2 (y 0) (grp (y 1)))) (x2 (ix2 (y 0) (grp (y 1)))) :=
  out_blockG x0 x1 x2

/-- The dequantized weight in folded form as ONE function of the three arrays the region reads: entry `(o, k)` is the
    integer `a[o,k]` times the scale `s[o, k/128]` plus the folded zero point `z[o, k/128]`. -/
abbrev W (a : S4096x4096.Idx → BitVec 32) (s z : S4096x32.Idx → EReal) : S4096x4096.Idx → EReal :=
  fun j => wFolded (a j) (s (ix2 (j 0) (grp (j 1)))) (z (ix2 (j 0) (grp (j 1))))

variable (V : (c : Dev nD) → (b : Ref sig .tc) → Buf (Elt Ideal) ((c : Thread nD τ).loc b))

/-- The four index maps, decided over the 8 grid points: every window's block row index is the output's, and every
    block column index is zero (each block spans all columns of its array); the output's block row index is at most 7. -/
theorem idx_facts : ∀ t : Fin cfg0.N,
    win0_0.index t (0 : Fin 2) = win0_3.index t (0 : Fin 2) ∧ win0_0.index t (1 : Fin 2) = 0
    ∧ win0_1.index t (0 : Fin 2) = win0_3.index t (0 : Fin 2) ∧ win0_1.index t (1 : Fin 2) = 0
    ∧ win0_2.index t (0 : Fin 2) = win0_3.index t (0 : Fin 2) ∧ win0_2.index t (1 : Fin 2) = 0
    ∧ win0_3.index t (1 : Fin 2) = 0 ∧ win0_3.index t (0 : Fin 2) ≤ 7 :=
  (by decide +kernel : ∀ t : Fin grid0.N, _)

/-- Every block row of the output is some point's. -/
theorem idx_onto : ∀ q0 : Fin 8, ∃ t : Fin cfg0.N, win0_3.index t = ![q0.val, 0] :=
  (by decide +kernel : ∀ q0 : Fin 8, ∃ t : Fin grid0.N, win0_3.index t = ![q0.val, 0])

/-- WHAT POINT `t` WRITES BACK is block `t` of `W` of the arrays as the region finds them. The block after the body is
    `blockG` of the three input blocks at `t`; an element of a window's block sits in its array at block index times
    block size plus its own coordinate, so the integer block read at `y` is the integer array at the output's
    position of `y`, and the scale and zero-point blocks read at `(row, group)` are their arrays at the output
    position's row and at the same group (both column block indices are zero). -/
theorem flushed_eq (c : Dev nD) (t : Fin cfg0.N) :
    (dat0 (F := Ideal) V c).flushed 3 t
      = ((cfg0.win 3).blk t).view.read (Elt Ideal) (W (V c main_arg1) (V c main_v9) (V c main_v10)) := by
  show (cfg0.win 3).cut (grid0.coords t) ((dat0 V c).after 3 t) = _
  rw [after0_3, out_blockG (iblk0 V c 0 t) (iblk0 V c 1 t) (iblk0 V c 2 t)]
  obtain ⟨e0, e1, e2, e3, e4, e5, e6, e7⟩ := idx_facts t
  funext y
  show wFolded (V c main_arg1 (((cfg0.win 0).blk t).view.emb y))
      (V c main_v9 (((cfg0.win 1).blk t).view.emb (ix2 (y 0) (grp (y 1)))))
      (V c main_v10 (((cfg0.win 2).blk t).view.emb (ix2 (y 0) (grp (y 1)))))
    = wFolded (V c main_arg1 (((cfg0.win 3).blk t).view.emb y))
      (V c main_v9 (ix2 ((((cfg0.win 3).blk t).view.emb y) 0) (grp ((((cfg0.win 3).blk t).view.emb y) 1))))
      (V c main_v10 (ix2 ((((cfg0.win 3).blk t).view.emb y) 0) (grp ((((cfg0.win 3).blk t).view.emb y) 1))))
  have h0 : ((cfg0.win 0).blk t).view.emb y = ((cfg0.win 3).blk t).view.emb y := by
    funext a; apply Fin.ext
    match a with
    | ⟨0, _⟩ => show win0_0.index t (0 : Fin 2) * 512 + 1 * (y 0).val = win0_3.index t (0 : Fin 2) * 512 + 1 * (y 0).val; omega
    | ⟨1, _⟩ => show win0_0.index t (1 : Fin 2) * 4096 + 1 * (y 1).val = win0_3.index t (1 : Fin 2) * 4096 + 1 * (y 1).val; omega
  have h1 : ((cfg0.win 1).blk t).view.emb (ix2 (y 0) (grp (y 1)))
      = ix2 ((((cfg0.win 3).blk t).view.emb y) 0) (grp ((((cfg0.win 3).blk t).view.emb y) 1)) := by
    funext a; apply Fin.ext
    match a with
    | ⟨0, _⟩ => show win0_1.index t (0 : Fin 2) * 512 + 1 * (y 0).val = win0_3.index t (0 : Fin 2) * 512 + 1 * (y 0).val; omega
    | ⟨1, _⟩ => show win0_1.index t (1 : Fin 2) * 32 + 1 * ((y 1).val / 128) = (win0_3.index t (1 : Fin 2) * 4096 + 1 * (y 1).val) / 128; omega
  have h2 : ((cfg0.win 2).blk t).view.emb (ix2 (y 0) (grp (y 1)))
      = ix2 ((((cfg0.win 3).blk t).view.emb y) 0) (grp ((((cfg0.win 3).blk t).view.emb y) 1)) := by
    funext a; apply Fin.ext
    match a with
    | ⟨0, _⟩ => show win0_2.index t (0 : Fin 2) * 512 + 1 * (y 0).val = win0_3.index t (0 : Fin 2) * 512 + 1 * (y 0).val; omega
    | ⟨1, _⟩ => show win0_2.index t (1 : Fin 2) * 32 + 1 * ((y 1).val / 128) = (win0_3.index t (1 : Fin 2) * 4096 + 1 * (y 1).val) / 128; omega
  rw [h0, h1, h2]
  rfl

/-- An index of the array is in point `t`'s output block iff each coordinate is in the block's range on its axis. -/
theorem mem_blk (t : Fin cfg0.N) (i : S4096x4096.Idx) :
    i ∈ ((cfg0.win 3).blk t).view.set ↔ ∀ a : Fin 2, win0_3.index t a * S512x4096.size a ≤ (i a).val
      ∧ (i a).val < win0_3.index t a * S512x4096.size a + S512x4096.size a := by
  show i ∈ ((View.whole main_v11).slice (win0_3.rect t)).set ↔ _
  rw [View.set_slice_whole, Rect.mem_set_unit]
  exact Iff.rfl

/-- The output's blocks cover the array: row `r` lies in the block of the point whose block row index is `r / 512`,
    and every block spans all 4096 columns. -/
theorem covered (i : S4096x4096.Idx) :
    ∃ t : Fin cfg0.N, (cfg0.win 3).flush t = true ∧ i ∈ ((cfg0.win 3).blk t).view.set := by
  have hi0 : (i 0).val < 4096 := (i 0).isLt
  have hi1 : (i 1).val < 4096 := (i 1).isLt
  obtain ⟨t, ht⟩ := idx_onto ⟨(i 0).val / 512, by omega⟩
  have q0 : win0_3.index t (0 : Fin 2) = (i 0).val / 512 := congrFun ht 0
  have q1 : win0_3.index t (1 : Fin 2) = 0 := congrFun ht 1
  refine ⟨t, flush0_3 t, ?_⟩
  rw [mem_blk]
  intro a
  match a with
  | ⟨0, _⟩ => show win0_3.index t (0 : Fin 2) * 512 ≤ (i 0).val ∧ (i 0).val < win0_3.index t (0 : Fin 2) * 512 + 512; omega
  | ⟨1, _⟩ => show win0_3.index t (1 : Fin 2) * 4096 ≤ (i 1).val ∧ (i 1).val < win0_3.index t (1 : Fin 2) * 4096 + 4096; omega

/-- THE DEQUANTIZED WEIGHT after the region: every point writes its block of `W` and the blocks cover the array, so the
    array ends holding `W` of the integer array and of the scale and folded zero-point arrays as the region found
    them. -/
theorem final (c : Dev nD) :
    (dat0 (F := Ideal) V c).arrAt 3 cfg0.N = W (V c main_arg1) (V c main_v9) (V c main_v10) :=
  (dat0 (F := Ideal) V c).arrAt_eq_of_cover 3 (W (V c main_arg1) (V c main_v9) (V c main_v10))
    (fun t _ => flushed_eq V c t) covered

end Cert.KernelIdeal.Dequant

end
-- ==== Proof.LibMatmulABt.lean ====
/-
  A matrix product against a transposed right operand, read at coordinates, over the extended reals.

  Both operands carry the shared axis as their SECOND axis: the left operand is `[m, k]`, the right one `[n, k]`,
  and the result `[m, n]` at `(p, q)` is the inner product of row `p` of the left operand with row `q` of the
  right one — the product `A · Bᵀ`. Into the zero accumulator nothing else is added, so the entry is exactly
  `∑ c, A (p, c) · B (q, c)`. Stated for any extents `m`, `k`, `n`; a product record of a program with these
  dimension numbers unfolds to `abtDims`.
-/
import Idealize.ShloMosaic.Lib.ValueIdx
import Idealize.ShloMosaic.PureOps.Ideal.Laws

noncomputable section

namespace Cert.LibMatmulABt

open Idealize.ShloMosaic Idealize.ShloMosaic.ValueIdx
open scoped BigOperators

/-- The dimension numbers of an `[m, k]` by `[n, k]` product contracted on the second axis of both operands, no batch
    axis: the result's rows are the left operand's rows, its columns the right operand's rows. -/
abbrev abtDims {m k n : Nat} (wf : DotDims.WF (⟨2, ![m, k]⟩ : Shape) ⟨2, ![n, k]⟩ ⟨2, ![m, n]⟩ [1] [1] [0] [0] [] []) :
    DotDims ⟨2, ![m, k]⟩ ⟨2, ![n, k]⟩ ⟨2, ![m, n]⟩ := ⟨[1], [1], [0], [0], [], [], wf⟩

section Abt
variable {m k n : Nat} (wf : DotDims.WF (⟨2, ![m, k]⟩ : Shape) ⟨2, ![n, k]⟩ ⟨2, ![m, n]⟩ [1] [1] [0] [0] [] [])

/-- The left operand is read in the result's row … -/
theorem abt_lhs_row (j : (⟨2, ![m, n]⟩ : Shape).Idx) (c : (abtDims wf).contr.Idx) :
    ((abtDims wf).lhsIdx j c 0).val = (j 0).val := by
  unfold DotDims.lhsIdx
  rw [dif_neg (show ¬(0 : Fin (⟨2, ![m, k]⟩ : Shape).rank) ∈ (abtDims wf).lhsBatch from List.not_mem_nil),
    dif_pos (show (0 : Fin (⟨2, ![m, k]⟩ : Shape).rank) ∈ (abtDims wf).lhsNonContracting from List.mem_singleton.mpr rfl)]
  rfl

/-- … and the right operand in the row named by the result's column. -/
theorem abt_rhs_row (j : (⟨2, ![m, n]⟩ : Shape).Idx) (c : (abtDims wf).contr.Idx) :
    ((abtDims wf).rhsIdx j c 0).val = (j 1).val := by
  unfold DotDims.rhsIdx
  rw [dif_neg (show ¬(0 : Fin (⟨2, ![n, k]⟩ : Shape).rank) ∈ (abtDims wf).rhsBatch from List.not_mem_nil),
    dif_pos (show (0 : Fin (⟨2, ![n, k]⟩ : Shape).rank) ∈ (abtDims wf).rhsNonContracting from List.mem_singleton.mpr rfl)]
  rfl

/-- The sum over the contraction index of such a product is the sum over the shared axis of the products of row `p`
    of the left operand and row `q` of the right one. -/
theorem sum_contr_abt {φ₁ φ₂ : FTy} (l : FVec Ideal ⟨2, ![m, k]⟩ φ₁) (r : FVec Ideal ⟨2, ![n, k]⟩ φ₂) (p : Fin m) (q : Fin n) :
    ∑ c : (abtDims wf).contr.Idx, l ((abtDims wf).lhsIdx (ix2 p q) c) * r ((abtDims wf).rhsIdx (ix2 p q) c)
      = ∑ c : Fin k, l (ix2 p c) * r (ix2 q c) := by
  rw [← Equiv.sum_comp (contrEquiv1 (abtDims wf) k rfl rfl).symm]
  refine Finset.sum_congr rfl fun c _ => ?_
  have hc := contrEquiv1_symm_val (abtDims wf) k rfl rfl c
  have el : (abtDims wf).lhsIdx (ix2 p q) ((contrEquiv1 (abtDims wf) k rfl rfl).symm c) = ix2 p c :=
    funext fun a => Fin.ext (by
      match a with
      | ⟨0, _⟩ => exact abt_lhs_row wf _ _
      | ⟨1, _⟩ => exact ((abtDims wf).lhsIdx_val_of_single rfl _ _).trans hc)
  have er : (abtDims wf).rhsIdx (ix2 p q) ((contrEquiv1 (abtDims wf) k rfl rfl).symm c) = ix2 q c :=
    funext fun a => Fin.ext (by
      match a with
      | ⟨0, _⟩ => exact abt_rhs_row wf _ _
      | ⟨1, _⟩ => exact ((abtDims wf).rhsIdx_val_of_single rfl _ _).trans hc)
  rw [el, er]

/-- Such a product into the zero accumulator reads, at `(p, q)`, the inner product of row `p` of the left operand and
    row `q` of the right one. -/
theorem matmul_zero_abt {φ₁ φ₂ : FTy} (l : FVec Ideal ⟨2, ![m, k]⟩ φ₁) (r : FVec Ideal ⟨2, ![n, k]⟩ φ₂)
    (p : Fin m) (q : Fin n) :
    FloatOps.matmul (abtDims wf) none l r (constant (F := Ideal) ⟨2, ![m, n]⟩ .f32 0x00000000#32) (ix2 p q)
      = ∑ c : Fin k, l (ix2 p c) * r (ix2 q c) := by
  rw [Ideal.matmul_constant_zero_apply]
  exact sum_contr_abt wf l r p q

end Abt

end Cert.LibMatmulABt

end
-- ==== Proof.Matmul.lean ====
import proofs.«101009_j1726576857544_2_alg».proof.Proof.Gen.KernelIdeal.Frame
import proofs.«101009_j1726576857544_2_alg».proof.Proof.Spec
import proofs.«101009_j1726576857544_2_alg».proof.Proof.LibMatmulABt
import Idealize.ShloMosaic.Lib.Pipeline.Value
import Idealize.ShloMosaic.Lib.ValueIdx
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.Matmul

open Cert.KernelIdeal Cert.KernelIdeal.Gen

variable {F : FTy → Type} [FloatOps F]

theorem hz : (![0, 0] : Fin 2 → Nat) = fun _ => 0 := funext fun a => by fin_cases a <;> rfl

/-! ## What each case of the body leaves in the output block -/

/-- A point that is not the first of its run of four: the body loads both operand blocks and the block the point before
    left, and stores their accumulated product over the whole block — one covering store. -/
theorem out_B (c : Dev nD) (i : grid1.Coords) (a3 : Memref sig .tc .vmem S2048x1024 .bf16) (h3 : a3.IsWhole)
    (a4 : Memref sig .tc .vmem S1024x1024 .bf16) (h4 : a4.IsWhole) (a5 : Memref sig .tc .vmem S2048x1024 .f32) (h5 : a5.IsWhole)
    (hc : ¬cond1_0 i) (x0 : Vec F S2048x1024 .bf16) (x1 : Vec F S1024x1024 .bf16) (xo : Vec F S2048x1024 .f32) :
    out1_B_2 c i a3 h3 a4 h4 a5 h5 hc x0 x1 xo = k1_pay2 x0 x1 xo := by
  unfold out1_B_2
  rw [View.read_writes_eq_canon _ _ _ (cover1_B_2 c i a3 h3 a4 h4 a5 h5 hc x0 x1 xo)]
  unfold kernelRun1_B
  dsimp only
  rw [View.canon_unit_zero hz]
  simp only [View.readAt_eq_ld, h3.read_unread, h4.read_unread, h5.read_unread, View.ld_unit_zero (S := S2048x1024) hz,
    View.ld_unit_zero (S := S1024x1024) hz]

/-- The first point of a run of four: the body stores the zero block, reads it back, and stores the product
    accumulated onto it — the later store covers the block, and its third operand is the zero block read back. -/
theorem out_A (c : Dev nD) (i : grid1.Coords) (a3 : Memref sig .tc .vmem S2048x1024 .bf16) (h3 : a3.IsWhole)
    (a4 : Memref sig .tc .vmem S1024x1024 .bf16) (h4 : a4.IsWhole) (a5 : Memref sig .tc .vmem S2048x1024 .f32) (h5 : a5.IsWhole)
    (hc : cond1_0 i) (x0 : Vec F S2048x1024 .bf16) (x1 : Vec F S1024x1024 .bf16) :
    out1_A_2 c i a3 h3 a4 h4 a5 h5 hc x0 x1 = k1_pay2 x0 x1 k1_pay1 := by
  unfold out1_A_2
  rw [View.read_writes_eq_canon _ _ _ (cover1_A_2 c i a3 h3 a4 h4 a5 h5 hc x0 x1)]
  unfold kernelRun1_A
  dsimp only
  sl_unfold_words
  rw [View.canon_cons_unit_zero (S := S2048x1024) hz, View.readCov_unit_zero (S := S2048x1024) _ hz]
  simp only [View.readAt_eq_ld, h3.read_unread, h4.read_unread, View.ld_unit_zero (S := S2048x1024) hz,
    View.ld_unit_zero (S := S1024x1024) hz]

/-! ## The body's arithmetic at an entry, over the extended reals -/

/-- The zero block is zero at every entry. -/
theorem pay1_apply (y : S2048x1024.Idx) : k1_pay1 (F := Ideal) y = 0 := by
  unfold k1_pay1
  simp only [broadcast]
  rw [Ideal.ofBits_def]
  exact Ideal.ofBits_zero_f32

/-- Entry `(p, q)` of the accumulated product: what the block held there, plus the inner product of row `p` of the
    left block and row `q` of the right block (both blocks carry the shared axis second; the product is taken into a
    zero accumulator, so nothing else is added). -/
theorem pay2_apply (x0 : Vec Ideal S2048x1024 .bf16) (x1 : Vec Ideal S1024x1024 .bf16) (xo : Vec Ideal S2048x1024 .f32)
    (p : Fin 2048) (q : Fin 1024) :
    k1_pay2 x0 x1 xo (ix2 p q) = xo (ix2 p q) + ∑ cc : Fin 1024, x0 (ix2 p cc) * x1 (ix2 q cc) := by
  unfold k1_pay2
  simp only [shapeCast_self]
  show xo (ix2 p q) + _ = _
  exact congrArg (xo (ix2 p q) + ·)
    (Cert.LibMatmulABt.matmul_zero_abt dot_S2048x1024_S1024x1024_S2048x1024_1_1_0_0_n_n_wf x0 x1 p q)

/-! ## Four runs of 1024 columns are the 4096 columns -/

theorem sum_four_runs (f : ℕ → EReal) :
    ∑ e ∈ Finset.range 4, ∑ cc : Fin 1024, f (1024 * e + cc.val) = ∑ k : Fin 4096, f k.val := by
  have h : ∀ e : ℕ, ∑ cc : Fin 1024, f (1024 * e + cc.val) = ∑ i ∈ Finset.range 1024, f (1024 * e + i) :=
    fun e => Fin.sum_univ_eq_sum_range (fun i => f (1024 * e + i)) 1024
  rw [Finset.sum_range_succ, Finset.sum_range_succ, Finset.sum_range_succ, Finset.sum_range_succ, Finset.sum_range_zero,
    h 0, h 1, h 2, h 3, Fin.sum_univ_eq_sum_range f 4096, show (4096 : ℕ) = 1024 + 1024 + 1024 + 1024 from rfl,
    Finset.sum_range_add, Finset.sum_range_add, Finset.sum_range_add, zero_add]
  simp only [show ∀ i : ℕ, 1024 * 0 + i = i from fun i => by omega, show ∀ i : ℕ, 1024 * 1 + i = 1024 + i from fun i => by omega,
    show ∀ i : ℕ, 1024 * 2 + i = 1024 + 1024 + i from fun i => by omega,
    show ∀ i : ℕ, 1024 * 3 + i = 1024 + 1024 + 1024 + i from fun i => by omega]

/-! ## Where a point's blocks sit

The grid is 4 × 4 × 4 in row-major order: point `t` works on row block `t / 16` of `x` (2048 rows), row block
`t / 4 % 4` of the weight (1024 rows, the result's columns) and run `t % 4` of the shared axis (1024 columns). -/

theorem idx_facts : ∀ t : Fin cfg1.N,
    win1_0.index t (0 : Fin 2) = t.val / 16 ∧ win1_0.index t (1 : Fin 2) = t.val % 4
    ∧ win1_1.index t (0 : Fin 2) = t.val / 4 % 4 ∧ win1_1.index t (1 : Fin 2) = t.val % 4
    ∧ win1_2.index t (0 : Fin 2) = t.val / 16 ∧ win1_2.index t (1 : Fin 2) = t.val / 4 % 4 :=
  (by decide +kernel : ∀ t : Fin grid1.N, _)

section Value

variable (V : (c : Dev nD) → (b : Ref sig .tc) → Buf (Elt Ideal) ((c : Thread nD τ).loc b)) (c : Dev nD)

/-- `x[r, k]` as the region finds it, by natural-number coordinates (zero outside the array: never read there). -/
def Xn (r k : ℕ) : EReal :=
  if h : r < 8192 ∧ k < 4096 then (V c main_v1 : S8192x4096.Idx → EReal) (ix2 ⟨r, h.1⟩ ⟨k, h.2⟩) else 0

/-- The dequantized weight `w[o, k]` as the region finds it, by natural-number coordinates. -/
def Wn (o k : ℕ) : EReal :=
  if h : o < 4096 ∧ k < 4096 then (V c main_v11 : S4096x4096.Idx → EReal) (ix2 ⟨o, h.1⟩ ⟨k, h.2⟩) else 0

/-- The left block of point `t` at `(p, cc)` is `x` at row `2048·(t/16) + p`, column `1024·(t%4) + cc`: a block's
    coordinate is the block index times the block size plus the coordinate inside the block. -/
theorem iblk_x (t : Fin cfg1.N) (p : Fin 2048) (cc : Fin 1024) :
    (iblk1 V c 0 t : Vec Ideal S2048x1024 .bf16) (ix2 p cc)
      = Xn V c (2048 * (t.val / 16) + p.val) (1024 * (t.val % 4) + cc.val) := by
  have hN : t.val < 64 := lt_of_lt_of_eq t.isLt (show cfg1.N = 64 from N_1)
  have hp := p.isLt
  have hcc := cc.isLt
  obtain ⟨e0, e1, -⟩ := idx_facts t
  unfold Xn
  rw [dif_pos ⟨by omega, by omega⟩]
  unfold iblk1
  rw [View.read_apply]
  show (V c main_v1 : S8192x4096.Idx → EReal) (((cfg1.win 0).blk t).view.emb (ix2 p cc)) = _
  refine congrArg _ (funext fun a => Fin.ext ?_)
  match a with
  | ⟨0, _⟩ => show win1_0.index t (0 : Fin 2) * 2048 + 1 * p.val = 2048 * (t.val / 16) + p.val; rw [e0]; omega
  | ⟨1, _⟩ => show win1_0.index t (1 : Fin 2) * 1024 + 1 * cc.val = 1024 * (t.val % 4) + cc.val; rw [e1]; omega

/-- The right block of point `t` at `(q, cc)` is the weight at row `1024·(t/4%4) + q`, column `1024·(t%4) + cc`. -/
theorem iblk_w (t : Fin cfg1.N) (q : Fin 1024) (cc : Fin 1024) :
    (iblk1 V c 1 t : Vec Ideal S1024x1024 .bf16) (ix2 q cc)
      = Wn V c (1024 * (t.val / 4 % 4) + q.val) (1024 * (t.val % 4) + cc.val) := by
  have hN : t.val < 64 := lt_of_lt_of_eq t.isLt (show cfg1.N = 64 from N_1)
  have hq := q.isLt
  have hcc := cc.isLt
  obtain ⟨-, -, e2, e3, -⟩ := idx_facts t
  unfold Wn
  rw [dif_pos ⟨by omega, by omega⟩]
  unfold iblk1
  rw [View.read_apply]
  show (V c main_v11 : S4096x4096.Idx → EReal) (((cfg1.win 1).blk t).view.emb (ix2 q cc)) = _
  refine congrArg _ (funext fun a => Fin.ext ?_)
  match a with
  | ⟨0, _⟩ => show win1_1.index t (0 : Fin 2) * 1024 + 1 * q.val = 1024 * (t.val / 4 % 4) + q.val; rw [e2]; omega
  | ⟨1, _⟩ => show win1_1.index t (1 : Fin 2) * 1024 + 1 * cc.val = 1024 * (t.val % 4) + cc.val; rw [e3]; omega

end Value

section Accumulate

variable (V : (c : Dev nD) → (b : Ref sig .tc) → Buf (Elt Ideal) ((c : Thread nD τ).loc b)) (c : Dev nD)

/-- Run `e` of the inner product of row `r` of `x` and row `o` of the weight: its 1024 columns `1024·e + cc`. -/
def part (r o e : ℕ) : EReal := ∑ cc : Fin 1024, Xn V c r (1024 * e + cc.val) * Wn V c o (1024 * e + cc.val)

/-- At the first point of a run of four the output block holds run 0 of every entry's inner product (onto zero). -/
theorem outsAt_first (n : ℕ) (h : n < cfg1.N) (h0 : n % 4 = 0) (p : Fin 2048) (q : Fin 1024) :
    outsAt1 V c n h (ix2 p q) = part V c (2048 * (n / 16) + p.val) (1024 * (n / 4 % 4) + q.val) 0 := by
  rw [outsAt1_A V c ⟨n, h⟩ h0, out_A, pay2_apply, pay1_apply, zero_add]
  unfold part
  refine Finset.sum_congr rfl fun cc _ => ?_
  rw [iblk_x, iblk_w]
  show Xn V c (2048 * (n / 16) + p.val) (1024 * (n % 4) + cc.val) * Wn V c (1024 * (n / 4 % 4) + q.val) (1024 * (n % 4) + cc.val) = _
  rw [h0]

/-- THE ACCUMULATION: after point `n` the output block holds, at `(p, q)`, the runs `0 … n % 4` of the inner product of
    the point's row of `x` and the point's row of the weight — by induction on the point: the first point of a run of
    four starts from zero, every other adds its run to what the point before left (same rows: only the run moved). -/
theorem outsAt_eq : ∀ (n : ℕ) (h : n < cfg1.N) (p : Fin 2048) (q : Fin 1024),
    outsAt1 V c n h (ix2 p q)
      = ∑ e ∈ Finset.range (n % 4 + 1), part V c (2048 * (n / 16) + p.val) (1024 * (n / 4 % 4) + q.val) e := by
  intro n
  induction n with
  | zero =>
    intro h p q
    rw [outsAt_first V c 0 h rfl p q]
    simp only [Nat.zero_mod, Nat.zero_add, Finset.sum_range_one]
  | succ n ih =>
    intro h p q
    by_cases h0 : (n + 1) % 4 = 0
    · rw [outsAt_first V c (n + 1) h h0 p q, h0, Nat.zero_add, Finset.sum_range_one]
    · rw [outsAt1_B V c ⟨n + 1, h⟩ h0, out_B, pay2_apply]
      show outsAt1 V c n _ (ix2 p q) + _ = _
      rw [ih _ p q, Finset.sum_range_succ (n := (n + 1) % 4)]
      have e1 : n % 4 + 1 = (n + 1) % 4 := by omega
      have e2 : n / 16 = (n + 1) / 16 := by omega
      have e3 : n / 4 % 4 = (n + 1) / 4 % 4 := by omega
      rw [e1, e2, e3]
      refine congrArg _ ?_
      unfold part
      refine Finset.sum_congr rfl fun cc _ => ?_
      rw [iblk_x, iblk_w]

/-- `x` as the region finds it, as a matrix of extended reals. -/
abbrev Xa : S8192x4096.Idx → EReal := V c main_v1
/-- The dequantized weight as the region finds it, as a matrix of extended reals. -/
abbrev Wa : S4096x4096.Idx → EReal := V c main_v11

/-- The product `x · wᵀ` of the arrays as the region finds them: entry `(r, o)` is the sum over the 4096 columns. -/
def Gmm : S8192x4096.Idx → EReal := fun j => ∑ k : Fin 4096, Xa V c (ix2 (j 0) k) * Wa V c (ix2 (j 1) k)

/-- The four runs of an entry's inner product are the entry of `x · wᵀ`. -/
theorem four_parts (r : Fin 8192) (o : Fin 4096) :
    ∑ e ∈ Finset.range 4, part V c r.val o.val e = Gmm V c (ix2 r o) := by
  unfold part
  rw [sum_four_runs (fun k => Xn V c r.val k * Wn V c o.val k)]
  unfold Gmm
  refine Finset.sum_congr rfl fun k _ => ?_
  unfold Xn Wn
  rw [dif_pos ⟨r.isLt, k.isLt⟩, dif_pos ⟨o.isLt, k.isLt⟩]

end Accumulate

section Final

variable (V : (c : Dev nD) → (b : Ref sig .tc) → Buf (Elt Ideal) ((c : Thread nD τ).loc b)) (c : Dev nD)

/-- After the last point of a run of four the output block holds, at `(p, q)`, the entry of `x · wᵀ` at row
    `2048·(t/16) + p`, column `1024·(t/4%4) + q`: all four runs of its inner product. -/
theorem flushed_pt (t : Fin cfg1.N) (h3 : t.val % 4 = 3) (p : Fin 2048) (q : Fin 1024)
    (hr : 2048 * (t.val / 16) + p.val < 8192) (ho : 1024 * (t.val / 4 % 4) + q.val < 4096) :
    outsAt1 V c t.val t.isLt (ix2 p q) = Gmm V c (ix2 (⟨2048 * (t.val / 16) + p.val, hr⟩ : Fin 8192) (⟨1024 * (t.val / 4 % 4) + q.val, ho⟩ : Fin 4096)) := by
  rw [outsAt_eq, h3, ← four_parts]

/-- WHAT A FLUSHING POINT WRITES BACK. The output block is written back after the last point of a run of four only
    (`t % 4 = 3`); by then it holds all four runs of every entry's inner product, which is the block of `x · wᵀ` at
    rows `2048·(t/16) + p`, columns `1024·(t/4%4) + q`. -/
theorem flushed_eq (t : Fin cfg1.N) (hf : (cfg1.win 2).flush t = true) :
    (dat1 V c).flushed 2 t = ((cfg1.win 2).blk t).view.read (Elt Ideal) (Gmm V c) := by
  have hN : t.val < 64 := lt_of_lt_of_eq t.isLt (show cfg1.N = 64 from N_1)
  have h3 : t.val % 4 = 3 := (flush1_2 t).mp hf
  obtain ⟨-, -, -, -, e4, e5⟩ := idx_facts t
  show (cfg1.win 2).cut (grid1.coords t) ((dat1 V c).after 2 t) = _
  rw [after1_2]
  funext y
  rw [View.read_apply]
  have hy0 : (y 0).val < 2048 := (y 0).isLt
  have hy1 : (y 1).val < 1024 := (y 1).isLt
  have hemb : ((cfg1.win 2).blk t).view.emb y
      = ix2 (⟨2048 * (t.val / 16) + (y 0).val, by omega⟩ : Fin 8192) (⟨1024 * (t.val / 4 % 4) + (y 1).val, by omega⟩ : Fin 4096) := by
    funext a
    apply Fin.ext
    match a with
    | ⟨0, _⟩ => show win1_2.index t (0 : Fin 2) * 2048 + 1 * (y 0).val = 2048 * (t.val / 16) + (y 0).val; rw [e4]; omega
    | ⟨1, _⟩ => show win1_2.index t (1 : Fin 2) * 1024 + 1 * (y 1).val = 1024 * (t.val / 4 % 4) + (y 1).val; rw [e5]; omega
  exact ((congrArg (outsAt1 V c t.val t.isLt) (eq_ix2 (n0 := 2048) (n1 := 1024) y)).trans
    (flushed_pt V c t h3 (y 0) (y 1) (by omega) (by omega))).trans (congrArg (Gmm V c) hemb).symm

/-- An entry of the result is in point `t`'s block iff each coordinate is in the block's range on its axis. -/
theorem mem_blk (t : Fin cfg1.N) (i : S8192x4096.Idx) :
    i ∈ ((cfg1.win 2).blk t).view.set ↔ ∀ a : Fin 2, win1_2.index t a * S2048x1024.size a ≤ (i a).val
      ∧ (i a).val < win1_2.index t a * S2048x1024.size a + S2048x1024.size a := by
  show i ∈ ((View.whole main_v12).slice (win1_2.rect t)).set ↔ _
  rw [View.set_slice_whole, Rect.mem_set_unit]
  exact Iff.rfl

/-- Every entry `(r, o)` of the result is written back by the last point of the run of four of its blocks: point
    `16·(r / 2048) + 4·(o / 1024) + 3`. -/
theorem cover (i : S8192x4096.Idx) :
    ∃ t : Fin cfg1.N, (cfg1.win 2).flush t = true ∧ i ∈ ((cfg1.win 2).blk t).view.set := by
  have h0 : (i 0).val < 8192 := (i 0).isLt
  have h1 : (i 1).val < 4096 := (i 1).isLt
  have hN : cfg1.N = 64 := N_1
  have ht : 16 * ((i 0).val / 2048) + 4 * ((i 1).val / 1024) + 3 < cfg1.N := by rw [hN]; omega
  obtain ⟨-, -, -, -, e4, e5⟩ := idx_facts ⟨_, ht⟩
  refine ⟨⟨_, ht⟩, (flush1_2 _).mpr (by show (16 * ((i 0).val / 2048) + 4 * ((i 1).val / 1024) + 3) % 4 = 3; omega), ?_⟩
  rw [mem_blk]
  intro a
  match a with
  | ⟨0, _⟩ =>
    show win1_2.index ⟨_, ht⟩ (0 : Fin 2) * 2048 ≤ (i 0).val ∧ (i 0).val < win1_2.index ⟨_, ht⟩ (0 : Fin 2) * 2048 + 2048
    rw [e4]
    show (16 * ((i 0).val / 2048) + 4 * ((i 1).val / 1024) + 3) / 16 * 2048 ≤ (i 0).val
      ∧ (i 0).val < (16 * ((i 0).val / 2048) + 4 * ((i 1).val / 1024) + 3) / 16 * 2048 + 2048
    omega
  | ⟨1, _⟩ =>
    show win1_2.index ⟨_, ht⟩ (1 : Fin 2) * 1024 ≤ (i 1).val ∧ (i 1).val < win1_2.index ⟨_, ht⟩ (1 : Fin 2) * 1024 + 1024
    rw [e5]
    show (16 * ((i 0).val / 2048) + 4 * ((i 1).val / 1024) + 3) / 4 % 4 * 1024 ≤ (i 1).val
      ∧ (i 1).val < (16 * ((i 0).val / 2048) + 4 * ((i 1).val / 1024) + 3) / 4 % 4 * 1024 + 1024
    omega

/-- THE RESULT ARRAY OF THE REGION: `x · wᵀ` of the two arrays as the region finds them. -/
theorem final : (dat1 V c).arrAt 2 cfg1.N = Gmm V c :=
  (dat1 V c).arrAt_eq_of_cover 2 (Gmm V c) (flushed_eq V c) (cover)

end Final

end Cert.KernelIdeal.Matmul

end
-- ==== Proof.KValue.lean ====
import proofs.«101009_j1726576857544_2_alg».proof.Proof.Gen.KernelIdeal.Frame
import proofs.«101009_j1726576857544_2_alg».proof.Proof.Spec
import proofs.«101009_j1726576857544_2_alg».proof.Proof.HostOps
import proofs.«101009_j1726576857544_2_alg».proof.Proof.Dequant
import proofs.«101009_j1726576857544_2_alg».proof.Proof.Matmul
import Idealize.ShloMosaic.Lib.ValueIdx

noncomputable section

open scoped BigOperators

namespace Cert.KernelIdeal.KValue

open Cert.KernelIdeal Cert.KernelIdeal.Gen Idealize.ShloMosaic Idealize.ShloMosaic.TcCoe Idealize.SL.Sem
open Idealize.ShloMosaic.ValueIdx

/-! # The kernel's result, assembled

The returned array is the second region's product cut back into batches; the second region multiplies the flattened
activations, which the first region never writes, by the weight the first region leaves in its output array; and the
first region builds that weight from the integer argument, the scales and the folded zero points, which the host
operations before it read off the third argument. Chaining these readings entry by entry gives the specification's
sum: entry `(b, r, o)` is the sum over the 4096 columns `k` of `x[b,r,k]` times the folded weight `w[o,k]`.

What each region leaves in its output array is known for ANY contents the region may be entered with; it is used
here at the contents the run actually enters it with. -/

variable (m : (ℓ : Loc nD τ sig) → Buf (Elt Ideal) ℓ) (ρ : Dev nD → PrngReg) (c : Dev nD)

/-- The activations as launched, as an array of extended reals. -/
abbrev A0 : S4x2048x4096.Idx → EReal := m ((c : Thread nD τ).loc main_arg0)

/-- The activations the second region reads at row `2048·b + r`: the first region does not write them, so they are
    what the host operations left, and that row of the flattened array is row `r` of batch `b`. -/
theorem x_entry (b : Fin 4) (r : Fin 2048) (k : Fin 4096) (h : 2048 * b.val + r.val < 8192) :
    Matmul.Xa (Gen.V2 m ρ) c (ix2 (⟨2048 * b.val + r.val, h⟩ : Fin 8192) k) = A0 m c (ix3 b r k) := by
  have e : Matmul.Xa (Gen.V2 m ρ) c = Matmul.Xa (Gen.V1 m ρ) c := Gen.W2_of_ne m ρ c main_v1 (by decide)
  refine (congrFun e _).trans ?_
  refine (HostOps.V1_v1 m ρ c ⟨2048 * b.val + r.val, h⟩ k).trans ?_
  have hb := b.isLt
  have hr := r.isLt
  refine congrArg (A0 m c) (funext fun a => ?_)
  match a with
  | ⟨0, _⟩ => exact Fin.ext (by show (2048 * b.val + r.val) / 2048 = b.val; omega)
  | ⟨1, _⟩ => exact Fin.ext (by show (2048 * b.val + r.val) % 2048 = r.val; omega)
  | ⟨2, _⟩ => rfl

/-- The weight the second region reads at `(o, k)`: what the first region left in its output array, that is the folded
    weight of the arrays the first region was entered with — the integer argument as launched, and the scale and the
    folded zero point the host operations read off the third argument. This is the specification's folded weight. -/
theorem w_entry (o k : Fin 4096) :
    Matmul.Wa (Gen.V2 m ρ) c (ix2 o k)
      = Cert.Spec.wK (m ((c : Thread nD τ).loc main_arg1)) (m ((c : Thread nD τ).loc main_arg2)) o k := by
  have e : Matmul.Wa (Gen.V2 m ρ) c
      = Dequant.W (Gen.V1 m ρ c main_arg1) (Gen.V1 m ρ c main_v9) (Gen.V1 m ρ c main_v10) :=
    (Gen.W2_arr m ρ c 3).trans (Dequant.final (Gen.V1 m ρ) c)
  refine (congrFun e (ix2 o k)).trans ?_
  show Cert.Spec.wFolded ((Gen.V1 m ρ c main_arg1 : S4096x4096.Idx → BitVec 32) (ix2 o k))
      ((Gen.V1 m ρ c main_v9 : S4096x32.Idx → EReal) (ix2 o (Cert.Spec.grp k)))
      ((Gen.V1 m ρ c main_v10 : S4096x32.Idx → EReal) (ix2 o (Cert.Spec.grp k))) = _
  rw [HostOps.V1_arg1 m ρ c, HostOps.V1_v9 m ρ c o (Cert.Spec.grp k), HostOps.V1_v10 m ρ c o (Cert.Spec.grp k)]
  rfl

/-- THE KERNEL'S RESULT: the array the program returns is the specification's `x · wᵀ` over the folded weight. -/
theorem result_eq :
    (Gen.W4 m ρ c (Proc.devRef .tc main_v13) : S4x2048x4096.Idx → EReal)
      = Cert.Spec.GK (m ((c : Thread nD τ).loc main_arg0)) (m ((c : Thread nD τ).loc main_arg1))
          (m ((c : Thread nD τ).loc main_arg2)) := by
  funext i
  obtain ⟨b, r, o, rfl⟩ : ∃ (b : Fin 4) (r : Fin 2048) (o : Fin 4096), i = ix3 b r o := ⟨i 0, i 1, i 2, eq_ix3 i⟩
  have hbr : 2048 * b.val + r.val < 8192 := by have := b.isLt; have := r.isLt; omega
  have e3 : (Gen.W3 m ρ c (Proc.devRef .tc main_v12) : S8192x4096.Idx → EReal) = Matmul.Gmm (Gen.V2 m ρ) c :=
    (Gen.W3_arr m ρ c 2).trans (Matmul.final (Gen.V2 m ρ) c)
  -- the returned entry is the second region's entry at row `2048·b + r` …
  have h1 : (Gen.W4 m ρ c (Proc.devRef .tc main_v13) : S4x2048x4096.Idx → EReal) (ix3 b r o)
      = Matmul.Gmm (Gen.V2 m ρ) c (ix2 (⟨2048 * b.val + r.val, hbr⟩ : Fin 8192) o) :=
    (HostOps.W4_v13 m ρ c b r o).trans (congrFun e3 _)
  -- … whose summands are, column by column, the specification's
  have h2 : Matmul.Gmm (Gen.V2 m ρ) c (ix2 (⟨2048 * b.val + r.val, hbr⟩ : Fin 8192) o)
      = Cert.Spec.GK (m ((c : Thread nD τ).loc main_arg0)) (m ((c : Thread nD τ).loc main_arg1))
          (m ((c : Thread nD τ).loc main_arg2)) (ix3 b r o) := by
    show (∑ k : Fin 4096, Matmul.Xa (Gen.V2 m ρ) c (ix2 (⟨2048 * b.val + r.val, hbr⟩ : Fin 8192) k)
            * Matmul.Wa (Gen.V2 m ρ) c (ix2 o k) : EReal)
      = ∑ k : Fin 4096, A0 m c (ix3 b r k)
          * Cert.Spec.wK (m ((c : Thread nD τ).loc main_arg1)) (m ((c : Thread nD τ).loc main_arg2)) o k
    exact Finset.sum_congr rfl fun k _ =>
      congrArg₂ (· * ·) (x_entry m ρ c b r k hbr) (w_entry m ρ c o k)
  exact h1.trans h2

end Cert.KernelIdeal.KValue

end
-- ==== Proof.lean ====
/-
  The kernel and its reference compute the same quantized linear layer.

  The weight is stored as an integer `q[o,k]` per entry, with a scale `s` and a zero point `z` per row `o` and per
  group of 128 consecutive columns `k`; the layer's weight is `(q - 8)·s + z` and the result is `x · wᵀ`, entry
  `(b, r, o)` being the sum over the 4096 columns `k` of `x[b,r,k] · w[o,k]`.

  The reference computes exactly that: it shifts the integer, scales, adds the zero point, and contracts once over all
  4096 columns. The kernel rearranges it twice. First it folds the shift into the zero point on the host, `z' = z - 8·s`,
  and a first region builds `w = q·s + z'` tile by tile (row blocks of 512, one 128-column group at a time). Then a second
  region multiplies in blocks: for each block of 2048 rows of `x` and 1024 rows of `w` it runs over the shared axis in
  four runs of 1024 columns, zeroing the output block at the first run and adding each run's partial product to it.

  Over the extended reals the second rearrangement costs nothing: a sum may be split into runs and re-associated
  freely, and zero is neutral. The first is distributivity, `(q - 8)·s + z = q·s + (z - 8·s)`, which fails at the
  infinities and holds when `s` and `z` are real numbers — which the precondition (every float input finite) gives.
  Nothing is asked of `x`. Changes of float format are the identity over the extended reals, and the idealization
  rewrote no operation of the kernel, so there is nothing to preserve.

  The modules: the specification (the two forms of the result as functions of the three argument arrays); the law
  between the two forms; finiteness from the precondition; the reference's run read entry by entry; the kernel's run
  with its result named as the fold of its four stretches; the host operations, the first region and the second
  region each read as a function of what they find; their composition into the kernel's value; and the five claims.
-/
import proofs.«101009_j1726576857544_2_alg».proof.Defs
import proofs.«101009_j1726576857544_2_alg».proof.Proof.Claims
import proofs.«101009_j1726576857544_2_alg».proof.Proof.KValue

noncomputable section

namespace Cert.Proof

/-- Everything the certificate claims: the three frames, the (empty) idealization ledger, and the equality of the two
    results over the extended reals, from the kernel's value equation. -/
theorem claim : Cert.Claim := Cert.Proof.Claims.claim_of fun m ρ c => Cert.KernelIdeal.KValue.result_eq m ρ c

end Cert.Proof

end
